-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S32768x256 : Shape := ⟨2, ![32768, 256]⟩
abbrev S256 : Shape := ⟨1, ![256]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S32768x256 : S_.BroadcastsInDim S32768x256 (![] : Fin 0 → Fin S32768x256.rank)
  reducesTo_S32768x256_S_d0_1 : S32768x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S256 .f32) (main_arg5 : FVec F S256 .f32) (main_arg6 : FVec F S256 .f32) (main_arg7 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_v33

def fn {F : FTy → Type} [FloatOps F] (main_arg0 : FVec F S65536x128 .f32) (main_arg1 : FVec F S32768x256 .f32) (main_arg2 : FVec F S32768x256 .f32) (main_arg3 : FVec F S256 .f32) (main_arg4 : FVec F S256 .f32) (main_arg5 : FVec F S256 .f32) (main_arg6 : FVec F S256 .f32) (main_arg7 : FVec F S256 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S32768x256 .f32 := Host.absf main_arg1
  let main_cst_0 : FVec F S_ .f32 := constant S_ .f32 0x7F800000#32
  let main_v5 : FVec F S32768x256 .f32 := broadcastInDim S32768x256 ![] bcast_S_S32768x256 main_cst_0
  let main_v6 : IVec S32768x256 1 := cmpf .olt main_v4 main_v5
  let main_c_1 : IVec S_ 1 := constantI S_ 1 1#1
  let main_v7 : IVec S_ 1 := (fun x v => Host.reduce IntOp.andi x v reducesTo_S32768x256_S_d0_1 h_S_) main_v6 main_c_1
  let main_v8 : IVec S_ 1 := andi main_v3 main_v7
  let main_v9 : FVec F S32768x256 .f32 := Host.absf main_arg2
  let main_cst_2 : FVec F S_ .f32 := constant S_ .f32 0x7F800000#32
  let main_v10 : FVec F S32768x256 .f32 := broadcastInDim S32768x256 ![] bcast_S_S32768x256 main_cst_2
  let main_v11 : IVec S32768x256 1 := cmpf .olt main_v9 main_v10
  let main_c_3 : IVec S_ 1 := constantI S_ 1 1#1
  let main_v12 : IVec S_ 1 := (fun x v => Host.reduce IntOp.andi x v reducesTo_S32768x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S65536x128 : Shape := ⟨2, ![65536, 128]⟩
abbrev S32768x256 : Shape := ⟨2, ![32768, 256]⟩
abbrev S256 : Shape := ⟨1, ![256]⟩
abbrev S128x256x256 : Shape := ⟨3, ![128, 256, 256]⟩
abbrev S128x256 : Shape := ⟨2, ![128, 256]⟩
abbrev S8x256x256 : Shape := ⟨3, ![8, 256, 256]⟩
abbrev S8x256 : Shape := ⟨2, ![8, 256]⟩
abbrev S256x256 : Shape := ⟨2, ![256, 256]⟩
abbrev S1x256x256 : Shape := ⟨3, ![1, 256, 256]⟩
abbrev S1x256 : Shape := ⟨2, ![1, 256]⟩
abbrev S_ : Shape := ⟨0, ![]⟩
abbrev S1 : Shape := ⟨1, ![1]⟩
abbrev S65536x256 : Shape := ⟨2, ![65536, 256]⟩
abbrev S2048x128 : Shape := ⟨2, ![2048, 128]⟩
abbrev S2048x256 : Shape := ⟨2, ![2048, 256]⟩
abbrev S2048 : Shape := ⟨1, ![2048]⟩
abbrev S2048x1 : Shape := ⟨2, ![2048, 1]⟩

abbrev nBuf : Space → Nat
  | .hbm => 31
  | .vmem => 18
  | .smem => 0
  | _ => 0

abbrev bufTy : (tb : Table) → Fin (tcTables nBuf tb) → BufTy
  | .hbm, ⟨0, _⟩ => ⟨S65536x128, .f32⟩
  | .hbm, ⟨1, _⟩ => ⟨S32768x256, .f32⟩
  | .hbm, ⟨2, _⟩ => ⟨S32768x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S128x256x256, .f32⟩
  | .hbm, ⟨9, _⟩ => ⟨S128x256x256, .f32⟩
  | .hbm, ⟨10, _⟩ => ⟨S128x256, .f32⟩
  | .hbm, ⟨11, _⟩ => ⟨S128x256, .f32⟩
  | .hbm, ⟨12, _⟩ => ⟨S256, .f32⟩
  | .hbm, ⟨13, _⟩ => ⟨S1x256, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1, .f32⟩
  | .hbm, ⟨19, _⟩ => ⟨S256, .f32⟩
  | .hbm, ⟨20, _⟩ => ⟨S256, .f32⟩
  | .hbm, ⟨21, _⟩ => ⟨S256, .f32⟩
  | .hbm, ⟨22, _⟩ => ⟨S_, .f32⟩
  | .hbm, ⟨23, _⟩ => ⟨S_, .f32⟩
  | .hbm, ⟨24, _⟩ => ⟨S1, .f32⟩
  | .hbm, ⟨25, _⟩ => ⟨S256, .f32⟩
  | .hbm, ⟨26, _⟩ => ⟨S256, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S65536x256, .f32⟩
  | .local _ .vmem, ⟨0, _⟩ => ⟨S8x256x256, .f32⟩
  | .local _ .vmem, ⟨1, _⟩ => ⟨S8x256x256, .f32⟩
  | .local _ .vmem, ⟨2, _⟩ => ⟨S8x256x256, .f32⟩
  | .local _ .vmem, ⟨3, _⟩ => ⟨S8x256x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | .local _ .vmem, ⟨7, _⟩ => ⟨S8x256, .f32⟩
  | .local _ .vmem, ⟨8, _⟩ => ⟨S2048x128, .f32⟩
  | .local _ .vmem, ⟨9, _⟩ => ⟨S2048x128, .f32⟩
  | .local _ .vmem, ⟨10, _⟩ => ⟨S128x256, .f32⟩
  | .local _ .vmem, ⟨11, _⟩ => ⟨S128x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S2048x256, .f32⟩
  | .local _ .vmem, ⟨17, _⟩ => ⟨S2048x256, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2048x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S32768x256_S128x256x256 : S32768x256.ShapeCasts S128x256x256
  iota_S256x256_d0_w32 : S256x256.Iotas .tc 32 [0]
  iota_S256x256_d1_w32 : S256x256.Iotas .tc 32 [1]
  natLt_1_32 : 1 < 32
  inb_S8x256x256_S8x256x256_0_0_0 : ∀ a, (![0, 0, 0] : Fin 3 → Nat) a + S8x256x256.size a ≤ S8x256x256.size a
  h_S8x256x256 : 0 < S8x256x256.numel
  shapeCasts_S8x256x256_S8x256x256 : S8x256x256.ShapeCasts S8x256x256
  shapeCasts_S256x256_S1x256x256 : S256x256.ShapeCasts S1x256x256
  broadcasts_S1x256x256_S8x256x256 : S1x256x256.Broadcasts S8x256x256
  reduces_S8x256x256_S8x256 : S8x256x256.Reduces [2] S8x256
  inb_S8x256_S8x256_0_0 : ∀ a, (![0, 0] : Fin 2 → Nat) a + S8x256.size a ≤ S8x256.size a
  h_S8x256 : 0 < S8x256.numel
  shapeCasts_S256_S1x256 : S256.ShapeCasts S1x256
  reducesTo_S256_S_d0 : S256.ReducesTo [0] S_
  h_S_ : 0 < S_.numel
  bcast_S_S1 : S_.BroadcastsInDim S1 (![] : Fin 0 → Fin S1.rank)
  bcast_S1_S256_0 : S1.BroadcastsInDim S256 (![0] : Fin 1 → Fin S256.rank)
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  reduces_S2048x256_S2048 : S2048x256.Reduces [1] S2048
  shapeCasts_S2048_S2048x1 : S2048.ShapeCasts S2048x1
  broadcasts_S2048x1_S2048x256 : S2048x1.Broadcasts S2048x256
  inb_S2048x256_S2048x256_0_0 : ∀ a, (![0, 0] : Fin 2 → Nat) a + S2048x256.size a ≤ S2048x256.size a
  h_S2048x256 : 0 < S2048x256.numel
  dot_S2048x128_S128x256_S2048x256_1_0_0_1_n_n_wf : DotDims.WF S2048x128 S128x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x256.size a ≤ S128x256x256.size a
  hwx0_0 : ∀ i : grid0.Coords, EltTy.bits .f32 = 32 ∨ (Rect.block (s := S128x256x256) S8x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x256.size a ≤ S128x256x256.size a
  hwx0_1 : ∀ i : grid0.Coords, EltTy.bits .f32 = 32 ∨ (Rect.block (s := S128x256x256) S8x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S128x256.size a
  hwx0_2 : ∀ i : grid0.Coords, EltTy.bits .f32 = 32 ∨ (Rect.block (s := S128x256) S8x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S128x256.size a
  hwx0_3 : ∀ i : grid0.Coords, EltTy.bits .f32 = 32 ∨ (Rect.block (s := S128x256) S8x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S65536x128.size a
  hwx1_0 : ∀ i : grid1.Coords, EltTy.bits .f32 = 32 ∨ (Rect.block (s := S65536x128) S2048x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2048x256.size a ≤ S65536x256.size a
  hwx1_7 : ∀ i : grid1.Coords, EltTy.bits .f32 = 32 ∨ (Rect.block (s := S65536x256) S2048x256.size (cc1_transform_7 i) (hinb1_7 i)).WholeWords (EltTy.packing .f32)

variable [Facts₀]

def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf

abbrev win0_0 : Pipeline.Window sig grid0 :=
  Pipeline.Window.ofSpec (Memref.whole main_v0) S8x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S8x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S8x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_0) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2_1) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v18) S2048x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S65536x128 : Shape := ⟨2, ![65536, 128]⟩
abbrev S32768x256 : Shape := ⟨2, ![32768, 256]⟩
abbrev S256 : Shape := ⟨1, ![256]⟩
abbrev S128x256x256 : Shape := ⟨3, ![128, 256, 256]⟩
abbrev S_ : Shape := ⟨0, ![]⟩
abbrev S256x1 : Shape := ⟨2, ![256, 1]⟩
abbrev S256x2 : Shape := ⟨2, ![256, 2]⟩
abbrev S128x256 : Shape := ⟨2, ![128, 256]⟩
abbrev S1 : Shape := ⟨1, ![1]⟩
abbrev S65536x256 : Shape := ⟨2, ![65536, 256]⟩
abbrev S1x256 : Shape := ⟨2, ![1, 256]⟩
abbrev S65536 : Shape := ⟨1, ![65536]⟩
abbrev S65536x1 : Shape := ⟨2, ![65536, 1]⟩

abbrev nBuf : Space → Nat
  | .hbm => 109
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S32768x256, .f32⟩
  | .hbm, ⟨2, _⟩ => ⟨S32768x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S128x256x256, .f32⟩
  | .hbm, ⟨9, _⟩ => ⟨S256, .i32⟩
  | .hbm, ⟨10, _⟩ => ⟨S_, .i32⟩
  | .hbm, ⟨11, _⟩ => ⟨S256, .i32⟩
  | .hbm, ⟨12, _⟩ => ⟨S256, .i1⟩
  | .hbm, ⟨13, _⟩ => ⟨S_, .i32⟩
  | .hbm, ⟨14, _⟩ => ⟨S256, .i32⟩
  | .hbm, ⟨15, _⟩ => ⟨S256, .i32⟩
  | .hbm, ⟨16, _⟩ => ⟨S256, .i32⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S_, .i32⟩
  | .hbm, ⟨21, _⟩ => ⟨S256, .i32⟩
  | .hbm, ⟨22, _⟩ => ⟨S256, .i32⟩
  | .hbm, ⟨23, _⟩ => ⟨S256, .i32⟩
  | .hbm, ⟨24, _⟩ => ⟨S256x1, .i32⟩
  | .hbm, ⟨25, _⟩ => ⟨S256x1, .i32⟩
  | .hbm, ⟨26, _⟩ => ⟨S256x2, .i32⟩
  | .hbm, ⟨27, _⟩ => ⟨S128x256, .f32⟩
  | .hbm, ⟨28, _⟩ => ⟨S128x256x256, .f32⟩
  | .hbm, ⟨29, _⟩ => ⟨S256, .i32⟩
  | .hbm, ⟨30, _⟩ => ⟨S_, .i32⟩
  | .hbm, ⟨31, _⟩ => ⟨S256, .i32⟩
  | .hbm, ⟨32, _⟩ => ⟨S256, .i1⟩
  | .hbm, ⟨33, _⟩ => ⟨S_, .i32⟩
  | .hbm, ⟨34, _⟩ => ⟨S256, .i32⟩
  | .hbm, ⟨35, _⟩ => ⟨S256, .i32⟩
  | .hbm, ⟨36, _⟩ => ⟨S256, .i32⟩
  | .hbm, ⟨37, _⟩ => ⟨S_, .i32⟩
  | .hbm, ⟨38, _⟩ => ⟨S256, .i32⟩
  | .hbm, ⟨39, _⟩ => ⟨S256, .i1⟩
  | .hbm, ⟨40, _⟩ => ⟨S_, .i32⟩
  | .hbm, ⟨41, _⟩ => ⟨S256, .i32⟩
  | .hbm, ⟨42, _⟩ => ⟨S256, .i32⟩
  | .hbm, ⟨43, _⟩ => ⟨S256, .i32⟩
  | .hbm, ⟨44, _⟩ => ⟨S256x1, .i32⟩
  | .hbm, ⟨45, _⟩ => ⟨S256x1, .i32⟩
  | .hbm, ⟨46, _⟩ => ⟨S256x2, .i32⟩
  | .hbm, ⟨47, _⟩ => ⟨S128x256, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S1, .f32⟩
  | .hbm, ⟨53, _⟩ => ⟨S256, .f32⟩
  | .hbm, ⟨54, _⟩ => ⟨S256, .f32⟩
  | .hbm, ⟨55, _⟩ => ⟨S256, .f32⟩
  | .hbm, ⟨56, _⟩ => ⟨S_, .f32⟩
  | .hbm, ⟨57, _⟩ => ⟨S_, .f32⟩
  | .hbm, ⟨58, _⟩ => ⟨S1, .f32⟩
  | .hbm, ⟨59, _⟩ => ⟨S256, .f32⟩
  | .hbm, ⟨60, _⟩ => ⟨S256, .f32⟩
  | .hbm, ⟨61, _⟩ => ⟨S65536x256, .f32⟩
  | .hbm, ⟨62, _⟩ => ⟨S65536x256, .f32⟩
  | .hbm, ⟨63, _⟩ => ⟨S65536x256, .f32⟩
  | .hbm, ⟨64, _⟩ => ⟨S1x256, .f32⟩
  | .hbm, ⟨65, _⟩ => ⟨S65536x256, .f32⟩
  | .hbm, ⟨66, _⟩ => ⟨S65536x256, .f32⟩
  | .hbm, ⟨67, _⟩ => ⟨S_, .f32⟩
  | .hbm, ⟨68, _⟩ => ⟨S256, .f32⟩
  | .hbm, ⟨69, _⟩ => ⟨S256, .f32⟩
  | .hbm, ⟨70, _⟩ => ⟨S1x256, .f32⟩
  | .hbm, ⟨71, _⟩ => ⟨S65536x256, .f32⟩
  | .hbm, ⟨72, _⟩ => ⟨S65536x256, .f32⟩
  | .hbm, ⟨73, _⟩ => ⟨S65536x256, .f32⟩
  | .hbm, ⟨74, _⟩ => ⟨S1x256, .f32⟩
  | .hbm, ⟨75, _⟩ => ⟨S65536x256, .f32⟩
  | .hbm, ⟨76, _⟩ => ⟨S65536x256, .f32⟩
  | .hbm, ⟨77, _⟩ => ⟨S1x256, .f32⟩
  | .hbm, ⟨78, _⟩ => ⟨S65536x256, .f32⟩
  | .hbm, ⟨79, _⟩ => ⟨S65536x256, .f32⟩
  | .hbm, ⟨80, _⟩ => ⟨S_, .f32⟩
  | .hbm, ⟨81, _⟩ => ⟨S65536, .f32⟩
  | .hbm, ⟨82, _⟩ => ⟨S65536x1, .f32⟩
  | .hbm, ⟨83, _⟩ => ⟨S_, .f32⟩
  | .hbm, ⟨84, _⟩ => ⟨S65536x1, .f32⟩
  | .hbm, ⟨85, _⟩ => ⟨S65536x1, .f32⟩
  | .hbm, ⟨86, _⟩ => ⟨S65536x256, .f32⟩
  | .hbm, ⟨87, _⟩ => ⟨S65536x256, .f32⟩
  | .hbm, ⟨88, _⟩ => ⟨S65536x256, .f32⟩
  | .hbm, ⟨89, _⟩ => ⟨S_, .f32⟩
  | .hbm, ⟨90, _⟩ => ⟨S65536, .f32⟩
  | .hbm, ⟨91, _⟩ => ⟨S65536x1, .f32⟩
  | .hbm, ⟨92, _⟩ => ⟨S_, .f32⟩
  | .hbm, ⟨93, _⟩ => ⟨S65536x1, .f32⟩
  | .hbm, ⟨94, _⟩ => ⟨S65536x1, .f32⟩
  | .hbm, ⟨95, _⟩ => ⟨S65536x256, .f32⟩
  | .hbm, ⟨96, _⟩ => ⟨S65536x256, .f32⟩
  | .hbm, ⟨97, _⟩ => ⟨S_, .f32⟩
  | .hbm, ⟨98, _⟩ => ⟨S65536x1, .f32⟩
  | .hbm, ⟨99, _⟩ => ⟨S65536x1, .f32⟩
  | .hbm, ⟨100, _⟩ => ⟨S65536x1, .f32⟩
  | .hbm, ⟨101, _⟩ => ⟨S65536x256, .f32⟩
  | .hbm, ⟨102, _⟩ => ⟨S65536x256, .f32⟩
  | .hbm, ⟨103, _⟩ => ⟨S1x256, .f32⟩
  | .hbm, ⟨104, _⟩ => ⟨S65536x256, .f32⟩
  | .hbm, ⟨105, _⟩ => ⟨S65536x256, .f32⟩
  | .hbm, ⟨106, _⟩ => ⟨S1x256, .f32⟩
  | .hbm, ⟨107, _⟩ => ⟨S65536x256, .f32⟩
  | .hbm, ⟨108, _⟩ => ⟨S65536x256, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_cst_11 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_12 : Ref sig .tc := ⟨.hbm, 89, rfl⟩
abbrev main_v67 : Ref sig .tc := ⟨.hbm, 90, rfl⟩
abbrev main_v68 : Ref sig .tc := ⟨.hbm, 91, rfl⟩
abbrev main_cst_13 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_14 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩

abbrev nD : Nat := 1
abbrev τ : Topo := Topo.v7x

variable {F : FTy → Type} [FloatOps F]

class Facts₀ : Prop where
  shapeCasts_S32768x256_S128x256x256 : S32768x256.ShapeCasts S128x256x256
  bcast_S_S256 : S_.BroadcastsInDim S256 (![] : Fin 0 → Fin S256.rank)
  bcast_S256_S256x1_0 : S256.BroadcastsInDim S256x1 (![0] : Fin 1 → Fin S256x1.rank)
  concatenates_S256x1_S256x1_S256x2_d1 : Shape.Concatenates [S256x1, S256x1] S256x2 1
  reducesTo_S256_S_d0 : S256.ReducesTo [0] S_
  h_S_ : 0 < S_.numel
  bcast_S_S1 : S_.BroadcastsInDim S1 (![] : Fin 0 → Fin S1.rank)
  bcast_S1_S256_0 : S1.BroadcastsInDim S256 (![0] : Fin 1 → Fin S256.rank)
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  reducesTo_S65536x256_S65536_d1 : S65536x256.ReducesTo [1] S65536
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x256_0_1 : S65536x1.BroadcastsInDim S65536x256 (![0, 1] : Fin 2 → Fin S65536x256.rank)
  gather_S128x256x256_S256x2_S128x256_0_12_n_n_12_1_12811_wf : GatherDims.WF S128x256x256 S256x2 S128x256 [0] [1, 2] [] [1, 2] [] 1 ![128, 1, 1]
  dot_S65536x128_S128x256_S65536x256_1_0_0_1_n_n_wf : DotDims.WF S65536x128 S128x256 S65536x256 [1] [0] [0] [1] [] []

variable [Facts₀]

def gather_S128x256x256_S256x2_S128x256_0_12_n_n_12_1_12811 : GatherDims S128x256x256 S256x2 S128x256 where
  offsetDims := [0]
  collapsedSliceDims := [1, 2]
  operandBatchingDims := []
  startIndicesBatchingDims := []
  startIndexMap := [1, 2]
  indexVectorDim := 1
  sliceSizes := ![128, 1, 1]
  wf := gather_S128x256x256_S256x2_S128x256_0_12_n_n_12_1_12811_wf
def dot_S65536x128_S128x256_S65536x256_1_0_0_1_n_n : DotDims S65536x128 S128x256 S65536x256 where
  lhsContracting := [1]
  rhsContracting := [0]
  lhsNonContracting := [0]
  rhsNonContracting := [1]
  lhsBatch := []
  rhsBatch := []
  wf := dot_S65536x128_S128x256_S65536x256_1_0_0_1_n_n_wf

class Facts : Prop extends Facts₀ where

variable [Facts]
-- ==== Proof.Spec.lean ====
/-
  The function both programs compute, index by index, on the extended reals.

  From class probabilities `X : [65536, 128]`, two weight tables `[32768, 256]` read as `[128, 256, 256]`,
  of which only the diagonals `w[c, f, f]` matter (`diag`), an attention vector `A`, a bias `B`, and the
  layer norm's scale and shift: row `r` is blended feature by feature,
  `A f · (X r · Dl)_f + (1 - A f) · tanh (X r · Dn)_f + B f` (`pre`), and then normalised over its
  256 features: centred by its mean, scaled by the reciprocal root of its variance plus a small constant,
  times `g`, plus `b` (`lnRow`). The three float literals are kept as the words both programs print.
-/
import Idealize.ShloMosaic.PureOps.Ideal
import Idealize.ShloMosaic.Lib.ValueIdx

noncomputable section

namespace Cert.Spec

open Idealize.ShloMosaic Idealize.ShloMosaic.ValueIdx

/-- The literal `1.0`. -/
def one : EReal := Ideal.ofBits .f32 0x3F800000#32
/-- The literal `256.0`, the number of features a row's mean divides by. -/
def n256 : EReal := Ideal.ofBits .f32 0x43800000#32
/-- The literal added to the variance under the root. -/
def eps : EReal := Ideal.ofBits .f32 0x3727C5AC#32

/-- The diagonal of a `[32768, 256]` table read as `[128, 256, 256]`: entry `(c, f)` is the table at row
    `c · 256 + f`, column `f`. -/
def diag (w : (⟨2, ![32768, 256]⟩ : Shape).Idx → EReal) : (⟨2, ![128, 256]⟩ : Shape).Idx → EReal :=
  fun i => w (ix2 (⟨(i 0).val * 256 + (i 1).val, by
    have h0 : (i 0).val < 128 := (i 0).isLt
    have h1 : (i 1).val < 256 := (i 1).isLt
    omega⟩ : Fin 32768) (⟨(i 1).val, (i 1).isLt⟩ : Fin 256))

theorem diag_apply (w : (⟨2, ![32768, 256]⟩ : Shape).Idx → EReal) (c : Fin 128) (f : Fin 256) :
    diag w (ix2 c f) = w (ix2 (⟨c.val * 256 + f.val, by have := c.isLt; have := f.isLt; omega⟩ : Fin 32768) f) := rfl

/-- Row `r` before normalisation, at feature `j`: the attention-weighted blend of the linear product and the
    `tanh` of the nonlinear one, plus the bias. -/
def pre (X : (⟨2, ![65536, 128]⟩ : Shape).Idx → EReal) (Dl Dn : (⟨2, ![128, 256]⟩ : Shape).Idx → EReal)
    (A B : (⟨1, ![256]⟩ : Shape).Idx → EReal) (r : Fin 65536) (j : Fin 256) : EReal :=
  A (ix1 j) * (∑ k : Fin 128, X (ix2 r k) * Dl (ix2 k j))
    + (one - A (ix1 j)) * Ideal.tanh (∑ k : Fin 128, X (ix2 r k) * Dn (ix2 k j))
    + B (ix1 j)

/-- The mean of a row of 256 entries. -/
def mean (p : Fin 256 → EReal) : EReal := Ideal.div (∑ k : Fin 256, p k) n256

/-- A row normalised over its 256 features. -/
def lnRow (p g b : Fin 256 → EReal) (j : Fin 256) : EReal :=
  (p j - mean p) * Ideal.rsqrt (mean (fun k => (p k - mean p) * (p k - mean p)) + eps) * g j + b j

/-- The result at row `r`, feature `j`. -/
def G (X : (⟨2, ![65536, 128]⟩ : Shape).Idx → EReal) (Dl Dn : (⟨2, ![128, 256]⟩ : Shape).Idx → EReal)
    (A B Gm Bt : (⟨1, ![256]⟩ : Shape).Idx → EReal) (r : Fin 65536) (j : Fin 256) : EReal :=
  lnRow (pre X Dl Dn A B r) (fun k => Gm (ix1 k)) (fun k => Bt (ix1 k)) j

/-- The same as one array over `[65536, 256]`. -/
def GA (X : (⟨2, ![65536, 128]⟩ : Shape).Idx → EReal) (Dl Dn : (⟨2, ![128, 256]⟩ : Shape).Idx → EReal)
    (A B Gm Bt : (⟨1, ![256]⟩ : Shape).Idx → EReal) : (⟨2, ![65536, 256]⟩ : Shape).Idx → EReal :=
  fun i => G X Dl Dn A B Gm Bt (i 0) (i 1)

theorem GA_apply (X : (⟨2, ![65536, 128]⟩ : Shape).Idx → EReal) (Dl Dn : (⟨2, ![128, 256]⟩ : Shape).Idx → EReal)
    (A B Gm Bt : (⟨1, ![256]⟩ : Shape).Idx → EReal) (r : Fin 65536) (j : Fin 256) :
    GA X Dl Dn A B Gm Bt (ix2 r j) = G X Dl Dn A B Gm Bt r j := rfl

end Cert.Spec

end
-- ==== Proof.KernelRun.lean ====
/-
  The kernel's run with its result named: every weakly fair execution of the two-region program terminates,
  nothing faulting, with the result array at what the last segment boundary holds for it and every argument
  array as launched. The boundary contents are a fold through the program: the host operations before the first
  region, that region's write-backs, the host operations between the regions, the second region's write-backs.
-/
import proofs.«106374_j36163624632835_1_alg».proof.Proof.Gen.KernelIdeal.Frame

set_option maxRecDepth 16384

noncomputable section

namespace Cert.KernelIdeal.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents for it, the arguments as launched. -/
theorem run_named : θ_run defs (onTc (τ := τ) (main (F := F))) ⟨m, fun _ => 0, ρ⟩ (fun r => ∀ c : Dev nD,
      r.2.mem ((c.tc : Thread nD τ).loc main_v18) = W4 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v18 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.KernelRun

end
-- ==== Proof.DiagBlock.lean ====
/-
  One block of the first kernel, read at an index. The body multiplies a block of 8 tables `[8, 256, 256]` by the
  mask `[row = column]` (built from two iotas, compared, widened and converted: one on the diagonal, zero off
  it) and sums over the last axis. On the extended reals a product with zero is zero, so the sum at `(p, q)`
  has the one surviving term `x (p, q, q)`: the diagonal entry.
-/
import proofs.«106374_j36163624632835_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section
namespace Cert.KernelIdeal.DiagBlock
open Idealize.ShloMosaic Idealize.ShloMosaic.ValueIdx Cert.KernelIdeal Cert.KernelIdeal.Gen

/-- The mask: one on the diagonal, zero off it. -/
theorem mask_apply (q k : Fin 256) : k0_pay1 (F := Ideal) (ix2 q k) = if q = k then (1 : EReal) else 0 := by
  unfold k0_pay1
  show FloatOps.sitofp (F := Ideal) .f32 ((IntOp.cmpi .eq (iota .tc S256x256 32 [0] iota_S256x256_d0_w32 (ix2 q k)) (iota .tc S256x256 32 [1] iota_S256x256_d1_w32 (ix2 q k))).setWidth 32) = _
  rw [iota_single_apply, iota_single_apply]
  show ((((IntOp.cmpi .eq (BitVec.ofNat 32 q.val) (BitVec.ofNat 32 k.val)).setWidth 32).toInt : ℝ) : EReal) = _
  by_cases h : q = k
  · subst h
    rw [if_pos rfl]
    have : IntOp.cmpi .eq (BitVec.ofNat 32 q.val) (BitVec.ofNat 32 q.val) = 1#1 := by simp [IntOp.cmpi]
    rw [this]
    norm_num
  · rw [if_neg h]
    have hne : BitVec.ofNat 32 q.val ≠ BitVec.ofNat 32 k.val := by
      intro e
      apply h
      apply Fin.ext
      have := congrArg BitVec.toNat e
      simp only [BitVec.toNat_ofNat] at this
      have hq := q.isLt
      have hk := k.isLt
      omega
    have hb : (BitVec.ofNat 32 q.val == BitVec.ofNat 32 k.val) = false := beq_eq_false_iff_ne.mpr hne
    have : IntOp.cmpi .eq (BitVec.ofNat 32 q.val) (BitVec.ofNat 32 k.val) = 0#1 := by simp [IntOp.cmpi, hb]
    rw [this]
    norm_num

/-- The mask cast to a leading unit axis and broadcast over the block's 8 tables, at `(p, q, k)`. -/
theorem maskB_apply (p : Fin 8) (q k : Fin 256) :
    broadcastTo S8x256x256 (shapeCast S1x256x256 (k0_pay1 (F := Ideal)) shapeCasts_S256x256_S1x256x256)
        broadcasts_S1x256x256_S8x256x256 (ix3 p q k) = if q = k then (1 : EReal) else 0 := by
  rw [broadcastTo_apply _ broadcasts_S1x256x256_S8x256x256 (ix3 p q k) (ix3 (0 : Fin 1) q k) (fun a => by
    match a with
    | ⟨0, _⟩ => rfl
    | ⟨1, _⟩ => show q.val = if (256 : Nat) = 1 then 0 else q.val; rw [if_neg (by decide)]
    | ⟨2, _⟩ => show k.val = if (256 : Nat) = 1 then 0 else k.val; rw [if_neg (by decide)])]
  rw [shapeCast_ab_1ab_apply, mask_apply]

/-- THE FIRST KERNEL'S BLOCK AT AN INDEX: the lane sum of a block of 8 tables against the mask reads, at
    `(p, q)`, the table's diagonal entry `(p, q, q)` — every other term of the sum is a product with zero. -/
theorem diag_sum (x : Vec Ideal S8x256x256 .f32) (p : Fin 8) (q : Fin 256) :
    multiReduction (F := Ideal) .add [2] S8x256
        (mulf (shapeCast S8x256x256 x shapeCasts_S8x256x256_S8x256x256)
          (broadcastTo S8x256x256 (shapeCast S1x256x256 (k0_pay1 (F := Ideal)) shapeCasts_S256x256_S1x256x256)
            broadcasts_S1x256x256_S8x256x256))
        0x00000000#32 reduces_S8x256x256_S8x256 (.inl rfl) rfl (ix2 p q) = x (ix3 p q q) := by
  refine (Ideal.multiReduction_add_single _ 0x00000000#32 reduces_S8x256x256_S8x256 (.inl rfl) rfl (ix2 p q)).trans ?_
  have e : ∀ k : Fin 256, reduces_S8x256x256_S8x256.lift (ix2 p q) k = ix3 p q k := fun k => funext fun a => Fin.ext (by
    match a with
    | ⟨0, _⟩ => rfl
    | ⟨1, _⟩ => rfl
    | ⟨2, _⟩ => rfl)
  show ∑ k : Fin 256, (mulf (shapeCast S8x256x256 x shapeCasts_S8x256x256_S8x256x256)
          (broadcastTo S8x256x256 (shapeCast S1x256x256 (k0_pay1 (F := Ideal)) shapeCasts_S256x256_S1x256x256)
            broadcasts_S1x256x256_S8x256x256)) (reduces_S8x256x256_S8x256.lift (ix2 p q) k) = _
  rw [Finset.sum_eq_single q]
  · rw [e, mulf_apply, maskB_apply, if_pos rfl, mul_one, shapeCast_self]
  · intro k _ hk
    rw [e, mulf_apply, maskB_apply, if_neg (fun h => hk h.symm), mul_zero]
  · intro h; exact absurd (Finset.mem_univ q) h

/-- The two stored values are that lane sum of the two loaded blocks. -/
theorem pay2_apply (x : Vec Ideal S8x256x256 .f32) (p : Fin 8) (q : Fin 256) :
    k0_pay2 (F := Ideal) x (ix2 p q) = x (ix3 p q q) := diag_sum x p q

theorem pay3_apply (x : Vec Ideal S8x256x256 .f32) (p : Fin 8) (q : Fin 256) :
    k0_pay3 (F := Ideal) x (ix2 p q) = x (ix3 p q q) := diag_sum x p q

end Cert.KernelIdeal.DiagBlock
end
-- ==== Proof.DiagFinal.lean ====
/-
  The first kernel's two result arrays, whole. Grid point `t` of 16 reads rows `8t … 8t+7` of each table array
  `[128, 256, 256]` and writes rows `8t … 8t+7` of the matching `[128, 256]` result; the written block is the
  diagonal of the read one, so block `t` of the result is block `t` of the diagonal of the whole table array, the
  16 blocks tile the result, and each result array ends as the diagonal `a (c, f, f)` of what the region found
  in its table array.
-/
import proofs.«106374_j36163624632835_1_alg».proof.Proof.Gen.KernelIdeal.Frame
import proofs.«106374_j36163624632835_1_alg».proof.Proof.DiagBlock
import Idealize.ShloMosaic.Lib.Pipeline.Value
import Idealize.ShloMosaic.Lib.ValueIdx

set_option maxRecDepth 16384

noncomputable section

namespace Cert.KernelIdeal.DiagFinal

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The diagonal `a (c, f, f)` of a `[128, 256, 256]` array, as a `[128, 256]` array. -/
def diag3 (a : S128x256x256.Idx → EReal) : S128x256.Idx → EReal :=
  fun i => a (ix3 (⟨(i 0).val, (i 0).isLt⟩ : Fin 128) (⟨(i 1).val, (i 1).isLt⟩ : Fin 256) (⟨(i 1).val, (i 1).isLt⟩ : Fin 256))

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 16 grid points: each table window sits at block row `t`, as does each
    result window, every other block index zero. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back into the first result is block `t` of the diagonal of the first table array. -/
theorem flushed2_eq (c : Dev nD) (t : Fin cfg0.N) :
    (dat0 V c).flushed 2 t = ((cfg0.win 2).blk t).view.read (Elt Ideal) (diag3 (V c main_v0)) := by
  show (cfg0.win 2).cut (grid0.coords t) ((dat0 V c).after 2 t) = _
  rw [after0_2]
  unfold out0_2
  rw [View.canon_unit_zero hz2]
  simp only [View.ld_unit_zero (S := S8x256x256) hz3]
  obtain ⟨e0, e1, e2, e3, e4, e5, e6, e7, e8, e9⟩ := idx_facts t
  funext j
  obtain ⟨p, q, rfl⟩ : ∃ (p : Fin 8) (q : Fin 256), j = ix2 p q := ⟨j 0, j 1, eq_ix2 j⟩
  refine (DiagBlock.pay2_apply (iblk0 V c 0 t) p q).trans ?_
  show V c main_v0 (((cfg0.win 0).blk t).view.emb (ix3 p q q)) = diag3 (V c main_v0) (((cfg0.win 2).blk t).view.emb (ix2 p q))
  unfold diag3
  refine congrArg (V c main_v0) (funext fun a => Fin.ext ?_)
  match a with
  | ⟨0, _⟩ => show win0_0.index t (0 : Fin 3) * 8 + 1 * p.val = win0_2.index t (0 : Fin 2) * 8 + 1 * p.val; omega
  | ⟨1, _⟩ => show win0_0.index t (1 : Fin 3) * 256 + 1 * q.val = win0_2.index t (1 : Fin 2) * 256 + 1 * q.val; omega
  | ⟨2, _⟩ => show win0_0.index t (2 : Fin 3) * 256 + 1 * q.val = win0_2.index t (1 : Fin 2) * 256 + 1 * q.val; omega

/-- What point `t` writes back into the second result is block `t` of the diagonal of the second table array. -/
theorem flushed3_eq (c : Dev nD) (t : Fin cfg0.N) :
    (dat0 V c).flushed 3 t = ((cfg0.win 3).blk t).view.read (Elt Ideal) (diag3 (V c main_v1)) := by
  show (cfg0.win 3).cut (grid0.coords t) ((dat0 V c).after 3 t) = _
  rw [after0_3]
  unfold out0_3
  rw [View.canon_unit_zero hz2]
  simp only [View.ld_unit_zero (S := S8x256x256) hz3]
  obtain ⟨e0, e1, e2, e3, e4, e5, e6, e7, e8, e9⟩ := idx_facts t
  funext j
  obtain ⟨p, q, rfl⟩ : ∃ (p : Fin 8) (q : Fin 256), j = ix2 p q := ⟨j 0, j 1, eq_ix2 j⟩
  refine (DiagBlock.pay3_apply (iblk0 V c 1 t) p q).trans ?_
  show V c main_v1 (((cfg0.win 1).blk t).view.emb (ix3 p q q)) = diag3 (V c main_v1) (((cfg0.win 3).blk t).view.emb (ix2 p q))
  unfold diag3
  refine congrArg (V c main_v1) (funext fun a => Fin.ext ?_)
  match a with
  | ⟨0, _⟩ => show win0_1.index t (0 : Fin 3) * 8 + 1 * p.val = win0_3.index t (0 : Fin 2) * 8 + 1 * p.val; omega
  | ⟨1, _⟩ => show win0_1.index t (1 : Fin 3) * 256 + 1 * q.val = win0_3.index t (1 : Fin 2) * 256 + 1 * q.val; omega
  | ⟨2, _⟩ => show win0_1.index t (2 : Fin 3) * 256 + 1 * q.val = win0_3.index t (1 : Fin 2) * 256 + 1 * q.val; omega

/-- An index of the first result is in point `t`'s block iff each coordinate is in the block's range on its axis. -/
theorem mem_blk2 (t : Fin cfg0.N) (i : S128x256.Idx) :
    i ∈ ((cfg0.win 2).blk t).view.set ↔ ∀ a : Fin 2, win0_2.index t a * S8x256.size a ≤ (i a).val ∧ (i a).val < win0_2.index t a * S8x256.size a + S8x256.size a := by
  show i ∈ ((View.whole main_v2_0).slice (win0_2.rect t)).set ↔ _
  rw [View.set_slice_whole, Rect.mem_set_unit]
  exact Iff.rfl

theorem mem_blk3 (t : Fin cfg0.N) (i : S128x256.Idx) :
    i ∈ ((cfg0.win 3).blk t).view.set ↔ ∀ a : Fin 2, win0_3.index t a * S8x256.size a ≤ (i a).val ∧ (i a).val < win0_3.index t a * S8x256.size a + S8x256.size a := by
  show i ∈ ((View.whole main_v2_1).slice (win0_3.rect t)).set ↔ _
  rw [View.set_slice_whole, Rect.mem_set_unit]
  exact Iff.rfl

/-- Row `r` of a result lies in the block of point `r / 8`: the 16 blocks tile the array. -/
theorem cover2 (i : S128x256.Idx) : ∃ t : Fin cfg0.N, (cfg0.win 2).flush t = true ∧ i ∈ ((cfg0.win 2).blk t).view.set := by
  have hi0 : (i 0).val < 128 := (i 0).isLt
  have hi1 : (i 1).val < 256 := (i 1).isLt
  have hN : cfg0.N = 16 := N_0
  obtain ⟨t, ht⟩ : ∃ t : Fin cfg0.N, t.val = (i 0).val / 8 := ⟨⟨(i 0).val / 8, by rw [hN]; omega⟩, rfl⟩
  obtain ⟨e0, e1, e2, e3, e4, e5, e6, e7, e8, e9⟩ := idx_facts t
  refine ⟨t, flush0_2 t, ?_⟩
  rw [mem_blk2]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 256 ≤ (i 1).val ∧ (i 1).val < win0_2.index t (1 : Fin 2) * 256 + 256; omega

theorem cover3 (i : S128x256.Idx) : ∃ t : Fin cfg0.N, (cfg0.win 3).flush t = true ∧ i ∈ ((cfg0.win 3).blk t).view.set := by
  have hi0 : (i 0).val < 128 := (i 0).isLt
  have hi1 : (i 1).val < 256 := (i 1).isLt
  have hN : cfg0.N = 16 := N_0
  obtain ⟨t, ht⟩ : ∃ t : Fin cfg0.N, t.val = (i 0).val / 8 := ⟨⟨(i 0).val / 8, by rw [hN]; omega⟩, rfl⟩
  obtain ⟨e0, e1, e2, e3, e4, e5, e6, e7, e8, e9⟩ := idx_facts t
  refine ⟨t, flush0_3 t, ?_⟩
  rw [mem_blk3]
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 256 ≤ (i 1).val ∧ (i 1).val < win0_3.index t (1 : Fin 2) * 256 + 256; omega

/-- THE FIRST RESULT ARRAY after the region: the diagonal of the first table array as the region found it. -/
theorem final2 (c : Dev nD) : (dat0 V c).arrAt 2 cfg0.N = diag3 (V c main_v0) :=
  (dat0 V c).arrAt_eq_of_cover 2 (diag3 (V c main_v0)) (fun t _ => flushed2_eq V c t) cover2

/-- THE SECOND RESULT ARRAY after the region: the diagonal of the second table array as the region found it. -/
theorem final3 (c : Dev nD) : (dat0 V c).arrAt 3 cfg0.N = diag3 (V c main_v1) :=
  (dat0 V c).arrAt_eq_of_cover 3 (diag3 (V c main_v1)) (fun t _ => flushed3_eq V c t) cover3

end Cert.KernelIdeal.DiagFinal

end
-- ==== Proof.LibKeepdims.lean ====
/-
  Two layout operations read at an index written by coordinates, the pair a reduction with kept dimensions
  goes through on its way back over the reduced axis: a vector `[a]` cast to a column `[a, 1]`, and a
  column `[a, 1]` broadcast along the rows of `[a, b]`. General lemmas: any element type, any extents.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.MainBlock.lean ====
/-
  One block of the second kernel, read at an index: the body's result on a block of 2048 rows is, at row `p`
  and feature `q`, the layer norm of the blended row `p` — the blend being the attention-weighted sum of the
  linear product and the `tanh` of the nonlinear product (each a sum over the 128 classes), plus the bias.
  A change of float format is the identity on the extended reals, a product into the zero accumulator is the
  plain sum over the contracted axis, and a lane sum with kept dimension reads back the row's sum.
-/
import proofs.«106374_j36163624632835_1_alg».proof.Proof.Gen.KernelIdeal.Skeleton
import proofs.«106374_j36163624632835_1_alg».proof.Proof.Spec
import proofs.«106374_j36163624632835_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.MainBlock

open Idealize.ShloMosaic Idealize.ShloMosaic.ValueIdx Cert.KernelIdeal Cert.KernelIdeal.Gen

/-- The blended block before normalisation, as the body computes it from its loads. -/
def blendK (x : Vec Ideal S2048x128 .f32) (wl wn : Vec Ideal S128x256 .f32) (att bs : Vec Ideal S1x256 .f32) :
    FVec Ideal S2048x256 .f32 :=
  addf
    (addf
      (mulf (broadcastTo S2048x256 (shapeCast S1x256 att shapeCasts_S1x256_S1x256) broadcasts_S1x256_S2048x256)
        (matmul dot_S2048x128_S128x256_S2048x256_1_0_0_1_n_n none (truncf .bf16 x bitsLt_bf16_f32)
          (truncf .bf16 (shapeCast S128x256 wl shapeCasts_S128x256_S128x256) bitsLt_bf16_f32)
          (constant S2048x256 .f32 0x00000000#32)))
      (mulf
        (broadcastTo S2048x256
          (subf (broadcast S1x256 (Scalar.ofBits (F := Ideal) .f32 0x3F800000#32)) (shapeCast S1x256 att shapeCasts_S1x256_S1x256))
          broadcasts_S1x256_S2048x256)
        (tanh (matmul dot_S2048x128_S128x256_S2048x256_1_0_0_1_n_n none (truncf .bf16 x bitsLt_bf16_f32)
          (truncf .bf16 (shapeCast S128x256 wn shapeCasts_S128x256_S128x256) bitsLt_bf16_f32)
          (constant S2048x256 .f32 0x00000000#32)))))
    (broadcastTo S2048x256 (shapeCast S1x256 bs shapeCasts_S1x256_S1x256) broadcasts_S1x256_S2048x256)

/-- A row's mean with kept dimension, as the body computes it: the lane sum, cast to a column, over 256. -/
def meanK (v : FVec Ideal S2048x256 .f32) : FVec Ideal S2048x1 .f32 :=
  divf (shapeCast S2048x1 (multiReduction .add [1] S2048 v 0x00000000#32 reduces_S2048x256_S2048 (.inl rfl) rfl) shapeCasts_S2048_S2048x1)
    (broadcast S2048x1 (Scalar.ofBits (F := Ideal) .f32 0x43800000#32))

/-- The block centred row by row. -/
def centreK (v : FVec Ideal S2048x256 .f32) : FVec Ideal S2048x256 .f32 :=
  subf v (broadcastTo S2048x256 (meanK v) broadcasts_S2048x1_S2048x256)

/-- The centred block scaled by the reciprocal root of its rows' variance plus the small constant. -/
def normK (v : FVec Ideal S2048x256 .f32) : FVec Ideal S2048x256 .f32 :=
  mulf (centreK v)
    (broadcastTo S2048x256
      (rsqrt (addf (meanK (mulf (centreK v) (centreK v))) (broadcast S2048x1 (Scalar.ofBits (F := Ideal) .f32 0x3727C5AC#32))))
      broadcasts_S2048x1_S2048x256)

/-- The body's first payload is the normalisation of the blend. -/
theorem pay2_eq (x : Vec Ideal S2048x128 .f32) (wl wn : Vec Ideal S128x256 .f32) (att bs : Vec Ideal S1x256 .f32) :
    k1_pay2 (F := Ideal) x wl wn att bs = normK (blendK x wl wn att bs) := rfl

/-! ## The products -/

theorem lhs_row (i : S2048x256.Idx) (q : dot_S2048x128_S128x256_S2048x256_1_0_0_1_n_n.contr.Idx) :
    (dot_S2048x128_S128x256_S2048x256_1_0_0_1_n_n.lhsIdx i q 0).val = (i 0).val := by
  unfold DotDims.lhsIdx
  rw [dif_neg (show ¬(0 : Fin S2048x128.rank) ∈ dot_S2048x128_S128x256_S2048x256_1_0_0_1_n_n.lhsBatch by decide), dif_pos (show (0 : Fin S2048x128.rank) ∈ dot_S2048x128_S128x256_S2048x256_1_0_0_1_n_n.lhsNonContracting by decide)]
  rfl
theorem lhs_col (i : S2048x256.Idx) (q : dot_S2048x128_S128x256_S2048x256_1_0_0_1_n_n.contr.Idx) :
    (dot_S2048x128_S128x256_S2048x256_1_0_0_1_n_n.lhsIdx i q 1).val = (q ⟨0, by decide⟩).val :=
  dot_S2048x128_S128x256_S2048x256_1_0_0_1_n_n.lhsIdx_val_of_single rfl i q
theorem rhs_row (i : S2048x256.Idx) (q : dot_S2048x128_S128x256_S2048x256_1_0_0_1_n_n.contr.Idx) :
    (dot_S2048x128_S128x256_S2048x256_1_0_0_1_n_n.rhsIdx i q 0).val = (q ⟨0, by decide⟩).val :=
  dot_S2048x128_S128x256_S2048x256_1_0_0_1_n_n.rhsIdx_val_of_single rfl i q
theorem rhs_col (i : S2048x256.Idx) (q : dot_S2048x128_S128x256_S2048x256_1_0_0_1_n_n.contr.Idx) :
    (dot_S2048x128_S128x256_S2048x256_1_0_0_1_n_n.rhsIdx i q 1).val = (i 1).val := by
  unfold DotDims.rhsIdx
  rw [dif_neg (show ¬(1 : Fin S128x256.rank) ∈ dot_S2048x128_S128x256_S2048x256_1_0_0_1_n_n.rhsBatch by decide), dif_pos (show (1 : Fin S128x256.rank) ∈ dot_S2048x128_S128x256_S2048x256_1_0_0_1_n_n.rhsNonContracting by decide)]
  rfl

/-- A product of a block of rows with a table, into the zero accumulator, read at `(p, q)`: the sum over the
    128 classes of row `p` times column `q` (the narrowing of both operands is the identity). -/
theorem product_apply (x : Vec Ideal S2048x128 .f32) (w : Vec Ideal S128x256 .f32) (p : Fin 2048) (q : Fin 256) :
    matmul (F := Ideal) dot_S2048x128_S128x256_S2048x256_1_0_0_1_n_n none (truncf .bf16 x bitsLt_bf16_f32) (truncf .bf16 w bitsLt_bf16_f32)
        (constant S2048x256 .f32 0x00000000#32) (ix2 p q)
      = ∑ k : Fin 128, x (ix2 p k) * w (ix2 k q) := by
  simp only [matmul]
  rw [Ideal.matmul_constant_zero_apply, ← Equiv.sum_comp (contrEquiv1 dot_S2048x128_S128x256_S2048x256_1_0_0_1_n_n 128 rfl rfl).symm]
  refine Finset.sum_congr rfl fun k _ => ?_
  have hk := contrEquiv1_symm_val dot_S2048x128_S128x256_S2048x256_1_0_0_1_n_n 128 rfl rfl k
  have el : dot_S2048x128_S128x256_S2048x256_1_0_0_1_n_n.lhsIdx (ix2 p q) ((contrEquiv1 dot_S2048x128_S128x256_S2048x256_1_0_0_1_n_n 128 rfl rfl).symm k) = ix2 p k := funext fun a => Fin.ext (by
    match a with
    | ⟨0, _⟩ => exact lhs_row _ _
    | ⟨1, _⟩ => exact (lhs_col _ _).trans hk)
  have er : dot_S2048x128_S128x256_S2048x256_1_0_0_1_n_n.rhsIdx (ix2 p q) ((contrEquiv1 dot_S2048x128_S128x256_S2048x256_1_0_0_1_n_n 128 rfl rfl).symm k) = ix2 k q := funext fun a => Fin.ext (by
    match a with
    | ⟨0, _⟩ => exact (rhs_row _ _).trans hk
    | ⟨1, _⟩ => exact rhs_col _ _)
  rw [el, er]
  rfl

/-! ## The blend, the mean and the normalisation at an index -/

/-- The blend at row `p`, feature `q`. -/
theorem blendK_apply (x : Vec Ideal S2048x128 .f32) (wl wn : Vec Ideal S128x256 .f32) (att bs : Vec Ideal S1x256 .f32)
    (p : Fin 2048) (q : Fin 256) :
    blendK x wl wn att bs (ix2 p q)
      = att (ix2 (0 : Fin 1) q) * (∑ k : Fin 128, x (ix2 p k) * wl (ix2 k q))
        + (Spec.one - att (ix2 (0 : Fin 1) q)) * Ideal.tanh (∑ k : Fin 128, x (ix2 p k) * wn (ix2 k q))
        + bs (ix2 (0 : Fin 1) q) := by
  unfold blendK
  simp only [shapeCast_self]
  rw [addf_apply, addf_apply, mulf_apply, mulf_apply, broadcastTo_1b_ab_apply, broadcastTo_1b_ab_apply,
    broadcastTo_1b_ab_apply, product_apply, subf_apply, broadcast_apply]
  show _ + _ * FloatOps.tanh (matmul (F := Ideal) dot_S2048x128_S128x256_S2048x256_1_0_0_1_n_n none (truncf .bf16 x bitsLt_bf16_f32)
        (truncf .bf16 wn bitsLt_bf16_f32) (constant S2048x256 .f32 0x00000000#32) (ix2 p q)) + _ = _
  rw [product_apply]
  rfl

/-- A row's mean with kept dimension is the row's sum over 256, whatever the unit coordinate. -/
theorem meanK_apply (v : FVec Ideal S2048x256 .f32) (p : Fin 2048) (u : Fin 1) :
    meanK v (ix2 p u) = Spec.mean (fun k => v (ix2 p k)) := by
  unfold meanK Spec.mean
  rw [divf_apply, broadcast_apply, Cert.LibKeepdims.shapeCast_a_a1_apply]
  refine congrArg (fun s => Ideal.div s (Ideal.ofBits .f32 0x43800000#32)) ?_
  exact (Ideal.multiReduction_add_single v 0x00000000#32 reduces_S2048x256_S2048 (.inl rfl) rfl (ix1 p)).trans
    (Finset.sum_congr rfl fun k _ => congrArg v (funext fun a => Fin.ext (by
      match a with
      | ⟨0, _⟩ => rfl
      | ⟨1, _⟩ => rfl)))

/-- The centred block at an index. -/
theorem centreK_apply (v : FVec Ideal S2048x256 .f32) (p : Fin 2048) (q : Fin 256) :
    centreK v (ix2 p q) = v (ix2 p q) - Spec.mean (fun k => v (ix2 p k)) := by
  unfold centreK
  rw [subf_apply, Cert.LibKeepdims.broadcastTo_a1_ab_apply, meanK_apply]

/-- The normalised block at an index. -/
theorem normK_apply (v : FVec Ideal S2048x256 .f32) (p : Fin 2048) (q : Fin 256) :
    normK v (ix2 p q)
      = (v (ix2 p q) - Spec.mean (fun k => v (ix2 p k)))
        * Ideal.rsqrt (Spec.mean (fun k => (v (ix2 p k) - Spec.mean (fun k' => v (ix2 p k')))
            * (v (ix2 p k) - Spec.mean (fun k' => v (ix2 p k')))) + Spec.eps) := by
  unfold normK
  rw [mulf_apply, centreK_apply, Cert.LibKeepdims.broadcastTo_a1_ab_apply]
  show _ * Ideal.rsqrt (addf (meanK (mulf (centreK v) (centreK v)))
      (broadcast S2048x1 (Scalar.ofBits (F := Ideal) .f32 0x3727C5AC#32)) (ix2 p (0 : Fin 1))) = _
  rw [addf_apply, meanK_apply, broadcast_apply]
  simp only [mulf_apply, centreK_apply]
  rfl

/-- THE BLOCK AT AN INDEX: the body's stored value at row `p`, feature `q` is the layer norm of the blended
    row `p`, with the scale and shift rows read at `q`. -/
theorem pay_apply (x : Vec Ideal S2048x128 .f32) (wl wn : Vec Ideal S128x256 .f32) (att bs g b : Vec Ideal S1x256 .f32)
    (p : Fin 2048) (q : Fin 256) :
    k1_pay1 (F := Ideal) (k1_pay2 x wl wn att bs) g b (ix2 p q)
      = Spec.lnRow (fun j => blendK x wl wn att bs (ix2 p j)) (fun j => g (ix2 (0 : Fin 1) j))
          (fun j => b (ix2 (0 : Fin 1) j)) q := by
  unfold k1_pay1
  simp only [shapeCast_self]
  rw [pay2_eq, addf_apply, mulf_apply, broadcastTo_1b_ab_apply, broadcastTo_1b_ab_apply, normK_apply]
  rfl

end Cert.KernelIdeal.MainBlock

end
-- ==== Proof.MainFinal.lean ====
/-
  The second kernel's result array, whole. Grid point `t` of 32 reads rows `2048 t … 2048 t + 2047` of the class
  probabilities and the whole of every other operand (two `[128, 256]` tables and four `[1, 256]` rows), and
  writes rows `2048 t … 2048 t + 2047` of the result. What it writes at `(p, q)` is the layer norm of the blended
  row, so block `t` of the result is block `t` of one function of the arrays the region found; the 32 blocks
  tile the result.
-/
import proofs.«106374_j36163624632835_1_alg».proof.Proof.Gen.KernelIdeal.Frame
import proofs.«106374_j36163624632835_1_alg».proof.Proof.MainBlock
import proofs.«106374_j36163624632835_1_alg».proof.Proof.Spec
import Idealize.ShloMosaic.Lib.Pipeline.Value
import Idealize.ShloMosaic.Lib.ValueIdx

set_option maxRecDepth 16384

noncomputable section

namespace Cert.KernelIdeal.MainFinal

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The one row of a `[1, 256]` array, as a vector. -/
def row1 (v : S1x256.Idx → EReal) : S256.Idx → EReal :=
  fun i => v (ix2 (0 : Fin 1) (⟨(i 0).val, (i 0).isLt⟩ : Fin 256))

theorem row1_apply (v : S1x256.Idx → EReal) (j : Fin 256) : row1 v (ix1 j) = v (ix2 (0 : Fin 1) j) := rfl

/-- The result as one function of the arrays the region finds: the specification at the class probabilities, the
    two tables, and the rows of attention, bias, scale and shift. -/
def GV (c : Dev nD) : S65536x256.Idx → EReal :=
  Spec.GA (V c main_arg0) (V c main_v2_0) (V c main_v2_1) (row1 (V c main_v15)) (row1 (V c main_v4))
    (row1 (V c main_v16)) (row1 (V c main_v17))

theorem hz2 : (![0, 0] : Fin 2 → Nat) = fun _ => 0 := funext fun a => by fin_cases a <;> rfl

/-- The printed index maps, decided over the 32 grid points: the class probabilities and the result sit at block
    row `t`; every other window is its whole array. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem t_lt (t : Fin cfg1.N) : t.val < 32 := Nat.lt_of_lt_of_eq t.isLt N_1

/-! ## Each window's block read where it lies in its array -/

/-- Row `p` of the class-probability block at point `t` is row `2048 t + p` of the array. -/
theorem rd0 (c : Dev nD) (t : Fin cfg1.N) (p : Fin 2048) (k : Fin 128) :
    iblk1 V c 0 t (ix2 p k)
      = V c main_arg0 (ix2 (⟨t.val * 2048 + p.val, by have := t_lt t; have := p.isLt; omega⟩ : Fin 65536) k) := by
  obtain ⟨e0, e1, -⟩ := idx_facts t
  show V c main_arg0 (((cfg1.win 0).blk t).view.emb (ix2 p k)) = _
  refine congrArg (V c main_arg0) (funext fun a => Fin.ext ?_)
  match a with
  | ⟨0, _⟩ => show win1_0.index t (0 : Fin 2) * 2048 + 1 * p.val = t.val * 2048 + p.val; omega
  | ⟨1, _⟩ => show win1_0.index t (1 : Fin 2) * 128 + 1 * k.val = k.val; omega

theorem rd1 (c : Dev nD) (t : Fin cfg1.N) (a b : _) : iblk1 V c 1 t (ix2 (a : Fin 128) (b : Fin 256)) = V c main_v2_0 (ix2 a b) := by
  obtain ⟨-, -, e0, e1, -⟩ := idx_facts t
  show V c main_v2_0 (((cfg1.win 1).blk t).view.emb (ix2 a b)) = _
  refine congrArg (V c main_v2_0) (funext fun d => Fin.ext ?_)
  match d with
  | ⟨0, _⟩ => show win1_1.index t (0 : Fin 2) * 128 + 1 * a.val = a.val; omega
  | ⟨1, _⟩ => show win1_1.index t (1 : Fin 2) * 256 + 1 * b.val = b.val; omega

theorem rd2 (c : Dev nD) (t : Fin cfg1.N) (a b : _) : iblk1 V c 2 t (ix2 (a : Fin 128) (b : Fin 256)) = V c main_v2_1 (ix2 a b) := by
  obtain ⟨-, -, -, -, e0, e1, -⟩ := idx_facts t
  show V c main_v2_1 (((cfg1.win 2).blk t).view.emb (ix2 a b)) = _
  refine congrArg (V c main_v2_1) (funext fun d => Fin.ext ?_)
  match d with
  | ⟨0, _⟩ => show win1_2.index t (0 : Fin 2) * 128 + 1 * a.val = a.val; omega
  | ⟨1, _⟩ => show win1_2.index t (1 : Fin 2) * 256 + 1 * b.val = b.val; omega

theorem rd3 (c : Dev nD) (t : Fin cfg1.N) (a b : _) : iblk1 V c 3 t (ix2 (a : Fin 1) (b : Fin 256)) = V c main_v4 (ix2 a b) := by
  obtain ⟨-, -, -, -, -, -, e0, e1, -⟩ := idx_facts t
  show V c main_v4 (((cfg1.win 3).blk t).view.emb (ix2 a b)) = _
  refine congrArg (V c main_v4) (funext fun d => Fin.ext ?_)
  match d with
  | ⟨0, _⟩ => show win1_3.index t (0 : Fin 2) * 1 + 1 * a.val = a.val; omega
  | ⟨1, _⟩ => show win1_3.index t (1 : Fin 2) * 256 + 1 * b.val = b.val; omega

theorem rd4 (c : Dev nD) (t : Fin cfg1.N) (a b : _) : iblk1 V c 4 t (ix2 (a : Fin 1) (b : Fin 256)) = V c main_v15 (ix2 a b) := by
  obtain ⟨-, -, -, -, -, -, -, -, e0, e1, -⟩ := idx_facts t
  show V c main_v15 (((cfg1.win 4).blk t).view.emb (ix2 a b)) = _
  refine congrArg (V c main_v15) (funext fun d => Fin.ext ?_)
  match d with
  | ⟨0, _⟩ => show win1_4.index t (0 : Fin 2) * 1 + 1 * a.val = a.val; omega
  | ⟨1, _⟩ => show win1_4.index t (1 : Fin 2) * 256 + 1 * b.val = b.val; omega

theorem rd5 (c : Dev nD) (t : Fin cfg1.N) (a b : _) : iblk1 V c 5 t (ix2 (a : Fin 1) (b : Fin 256)) = V c main_v16 (ix2 a b) := by
  obtain ⟨-, -, -, -, -, -, -, -, -, -, e0, e1, -⟩ := idx_facts t
  show V c main_v16 (((cfg1.win 5).blk t).view.emb (ix2 a b)) = _
  refine congrArg (V c main_v16) (funext fun d => Fin.ext ?_)
  match d with
  | ⟨0, _⟩ => show win1_5.index t (0 : Fin 2) * 1 + 1 * a.val = a.val; omega
  | ⟨1, _⟩ => show win1_5.index t (1 : Fin 2) * 256 + 1 * b.val = b.val; omega

theorem rd6 (c : Dev nD) (t : Fin cfg1.N) (a b : _) : iblk1 V c 6 t (ix2 (a : Fin 1) (b : Fin 256)) = V c main_v17 (ix2 a b) := by
  obtain ⟨-, -, -, -, -, -, -, -, -, -, -, -, e0, e1, -⟩ := idx_facts t
  show V c main_v17 (((cfg1.win 6).blk t).view.emb (ix2 a b)) = _
  refine congrArg (V c main_v17) (funext fun d => Fin.ext ?_)
  match d with
  | ⟨0, _⟩ => show win1_6.index t (0 : Fin 2) * 1 + 1 * a.val = a.val; omega
  | ⟨1, _⟩ => show win1_6.index t (1 : Fin 2) * 256 + 1 * b.val = b.val; omega

/-! ## From blocks to the array -/

/-- WHAT POINT `t` WRITES BACK is block `t` of `GV`: at `(p, q)` the layer norm of the blended row `2048 t + p`. -/
theorem flushed7_eq (c : Dev nD) (t : Fin cfg1.N) :
    (dat1 V c).flushed 7 t = ((cfg1.win 7).blk t).view.read (Elt Ideal) (GV V c) := by
  show (cfg1.win 7).cut (grid1.coords t) ((dat1 V c).after 7 t) = _
  rw [after1_7]
  unfold out1_7
  rw [View.canon_unit_zero hz2]
  simp only [View.ld_unit_zero (S := S2048x128) hz2, View.ld_unit_zero (S := S128x256) hz2, View.ld_unit_zero (S := S1x256) hz2]
  funext j
  obtain ⟨p, q, rfl⟩ : ∃ (p : Fin 2048) (q : Fin 256), j = ix2 p q := ⟨j 0, j 1, eq_ix2 j⟩
  refine (MainBlock.pay_apply (iblk1 V c 0 t) (iblk1 V c 1 t) (iblk1 V c 2 t) (iblk1 V c 4 t) (iblk1 V c 3 t)
    (iblk1 V c 5 t) (iblk1 V c 6 t) p q).trans ?_
  have hr : t.val * 2048 + p.val < 65536 := by have := t_lt t; have := p.isLt; omega
  have hemb : ((cfg1.win 7).blk t).view.emb (ix2 p q) = ix2 (⟨t.val * 2048 + p.val, hr⟩ : Fin 65536) q := by
    obtain ⟨-, -, -, -, -, -, -, -, -, -, -, -, -, -, e0, e1⟩ := idx_facts t
    refine funext fun a => Fin.ext ?_
    match a with
    | ⟨0, _⟩ => show win1_7.index t (0 : Fin 2) * 2048 + 1 * p.val = t.val * 2048 + p.val; omega
    | ⟨1, _⟩ => show win1_7.index t (1 : Fin 2) * 256 + 1 * q.val = q.val; omega
  show _ = GV V c (((cfg1.win 7).blk t).view.emb (ix2 p q))
  rw [hemb]
  unfold GV
  rw [Spec.GA_apply]
  unfold Spec.G
  have hf : (fun j => MainBlock.blendK (iblk1 V c 0 t) (iblk1 V c 1 t) (iblk1 V c 2 t) (iblk1 V c 4 t) (iblk1 V c 3 t) (ix2 p j))
      = Spec.pre (V c main_arg0) (V c main_v2_0) (V c main_v2_1) (row1 (V c main_v15)) (row1 (V c main_v4))
          (⟨t.val * 2048 + p.val, hr⟩ : Fin 65536) := by
    funext j
    rw [MainBlock.blendK_apply]
    unfold Spec.pre
    simp only [rd0 V c t, rd1 V c t, rd2 V c t, rd3 V c t, rd4 V c t, row1_apply]
  have hg : (fun j => iblk1 V c 5 t (ix2 (0 : Fin 1) j)) = fun k => row1 (V c main_v16) (ix1 k) := by
    funext j; rw [rd5 V c t, row1_apply]
  have hb : (fun j => iblk1 V c 6 t (ix2 (0 : Fin 1) j)) = fun k => row1 (V c main_v17) (ix1 k) := by
    funext j; rw [rd6 V c t, row1_apply]
  rw [hf, hg, hb]

/-- An index of the result is in point `t`'s block iff each coordinate is in the block's range on its axis. -/
theorem mem_blk7 (t : Fin cfg1.N) (i : S65536x256.Idx) :
    i ∈ ((cfg1.win 7).blk t).view.set ↔ ∀ a : Fin 2, win1_7.index t a * S2048x256.size a ≤ (i a).val ∧ (i a).val < win1_7.index t a * S2048x256.size a + S2048x256.size a := by
  show i ∈ ((View.whole main_v18).slice (win1_7.rect t)).set ↔ _
  rw [View.set_slice_whole, Rect.mem_set_unit]
  exact Iff.rfl

/-- Row `r` of the result lies in the block of point `r / 2048`: the 32 blocks tile the array. -/
theorem cover7 (i : S65536x256.Idx) : ∃ t : Fin cfg1.N, (cfg1.win 7).flush t = true ∧ i ∈ ((cfg1.win 7).blk t).view.set := by
  have hi0 : (i 0).val < 65536 := (i 0).isLt
  have hi1 : (i 1).val < 256 := (i 1).isLt
  have hN : cfg1.N = 32 := N_1
  obtain ⟨t, ht⟩ : ∃ t : Fin cfg1.N, t.val = (i 0).val / 2048 := ⟨⟨(i 0).val / 2048, by rw [hN]; omega⟩, rfl⟩
  obtain ⟨-, -, -, -, -, -, -, -, -, -, -, -, -, -, e0, e1⟩ := idx_facts t
  refine ⟨t, flush1_7 t, ?_⟩
  rw [mem_blk7]
  intro a
  match a with
  | ⟨0, _⟩ => show win1_7.index t (0 : Fin 2) * 2048 ≤ (i 0).val ∧ (i 0).val < win1_7.index t (0 : Fin 2) * 2048 + 2048; omega
  | ⟨1, _⟩ => show win1_7.index t (1 : Fin 2) * 256 ≤ (i 1).val ∧ (i 1).val < win1_7.index t (1 : Fin 2) * 256 + 256; omega

/-- THE RESULT ARRAY after the region: `GV` of the arrays the region found. -/
theorem final7 (c : Dev nD) : (dat1 V c).arrAt 7 cfg1.N = GV V c :=
  (dat1 V c).arrAt_eq_of_cover 7 (GV V c) (fun t _ => flushed7_eq V c t) cover7

end Cert.KernelIdeal.MainFinal

end
-- ==== Proof.Boundary.lean ====
/-
  What the result array holds at the end, as a function of the launch memory. The last boundary's contents for
  the result array are the second region's write-backs, one function (`MainFinal.GV`) of what that region was
  entered with; it was entered with the class probabilities as launched, the first region's two results — the
  diagonals of the two table arrays, each a reshape of an argument —, and four rows the host operations between
  the regions computed: the sum of the two biases, the softmax of the attention logits, the scale and the shift,
  each reshaped to one row. The softmax is kept as the one function of the logits the host chain is.
-/
import proofs.«106374_j36163624632835_1_alg».proof.Proof.Gen.KernelIdeal.Frame
import proofs.«106374_j36163624632835_1_alg».proof.Proof.DiagFinal
import proofs.«106374_j36163624632835_1_alg».proof.Proof.MainFinal
import proofs.«106374_j36163624632835_1_alg».proof.Proof.Spec
import Idealize.ShloMosaic.Lib.StableHlo.Run
import Idealize.ShloMosaic.Lib.ValueLayout
import Idealize.ShloMosaic.PureOps.Ideal

set_option maxRecDepth 16384

noncomputable section

namespace Cert.KernelIdeal.Boundary

open Idealize.ShloMosaic Idealize.ShloMosaic.TcCoe Idealize.ShloMosaic.ValueIdx Idealize.ShloMosaic.StableHlo
open Idealize.SL Idealize.SL.Sem
open Cert.KernelIdeal Cert.KernelIdeal.Gen

variable (m : (ℓ : Loc nD τ sig) → Buf (Elt Ideal) ℓ) (ρ : Dev nD → PrngReg)

/-- The softmax of the attention logits, as the host operations between the regions compute it: the logits less
    their maximum, exponentiated, over the sum of those exponentials. -/
def softK (a : S256.Idx → EReal) : S256.Idx → EReal :=
  Host.divf (F := Ideal)
    (Host.exp (F := Ideal) (subf a (broadcastInDim S256 ![0] bcast_S1_S256_0 (broadcastInDim S1 ![] bcast_S_S1
      (maximumf (constant (F := Ideal) S_ .f32 0xFF800000#32)
        (Host.reduce FloatOps.maximumf a (constant (F := Ideal) S_ .f32 0xFF800000#32) reducesTo_S256_S_d0 h_S_))))))
    (broadcastInDim S256 ![0] bcast_S1_S256_0 (broadcastInDim S1 ![] bcast_S_S1
      (Host.reduceAdd (F := Ideal)
        (Host.exp (F := Ideal) (subf a (broadcastInDim S256 ![0] bcast_S1_S256_0 (broadcastInDim S1 ![] bcast_S_S1
          (maximumf (constant (F := Ideal) S_ .f32 0xFF800000#32)
            (Host.reduce FloatOps.maximumf a (constant (F := Ideal) S_ .f32 0xFF800000#32) reducesTo_S256_S_d0 h_S_))))))
        (constant (F := Ideal) S_ .f32 0x00000000#32) reducesTo_S256_S_d0 h_S_)))

/-- The sum of the two bias vectors, entry by entry. -/
def biasK (a b : S256.Idx → EReal) : S256.Idx → EReal := fun i => a i + b i

/-! ## The arguments, read at the boundaries before the second region -/

theorem W1_arg (c : Dev nD) (r : Ref sig .tc) (h0 : r ≠ main_v0) (h1 : r ≠ main_v1) :
    W1 m ρ c (Proc.devRef .tc r) = m ((c : Thread nD τ).loc r) := by
  show StableHlo.after hostOps0 (W0 m ρ c) (Proc.devRef .tc r) = _
  dsimp only [hostOps0]
  simp only [after_cons, after_nil]
  rw [reshape_result_ne (h := h1), reshape_result_ne (h := h0)]

theorem W2_arg (c : Dev nD) (r : Ref sig .tc) (h0 : r ≠ main_v0) (h1 : r ≠ main_v1) (h2 : r ≠ main_v2_0) (h3 : r ≠ main_v2_1) :
    W2 m ρ c (Proc.devRef .tc r) = m ((c : Thread nD τ).loc r) :=
  (W2_of_ne m ρ c r (fun w => by
    match w with
    | ⟨0, _⟩ => exact fun e => h0 e.symm
    | ⟨1, _⟩ => exact fun e => h1 e.symm
    | ⟨2, _⟩ => exact fun e => h2 e.symm
    | ⟨3, _⟩ => exact fun e => h3 e.symm)).trans (W1_arg m ρ c r h0 h1)

/-- The class probabilities are as launched when the second region is entered. -/
theorem V3_arg0 (c : Dev nD) : V3 m ρ c main_arg0 = m ((c : Thread nD τ).loc main_arg0) := by
  show StableHlo.after hostOps1 (W2 m ρ c) (Proc.devRef .tc main_arg0) = _
  dsimp only [hostOps1]
  after_results
  exact W2_arg m ρ c main_arg0 (by decide) (by decide) (by decide) (by decide)

/-- The two table arrays the first region reads are the reshapes of the two weight arguments. -/
theorem V1_v0 (c : Dev nD) : V1 m ρ c main_v0 = shapeCast S128x256x256 (m ((c : Thread nD τ).loc main_arg1)) shapeCasts_S32768x256_S128x256x256 := by
  show StableHlo.after hostOps0 (W0 m ρ c) (Proc.devRef .tc main_v0) = _
  dsimp only [hostOps0]
  after_results
  rfl

theorem V1_v1 (c : Dev nD) : V1 m ρ c main_v1 = shapeCast S128x256x256 (m ((c : Thread nD τ).loc main_arg2)) shapeCasts_S32768x256_S128x256x256 := by
  show StableHlo.after hostOps0 (W0 m ρ c) (Proc.devRef .tc main_v1) = _
  dsimp only [hostOps0]
  after_results
  rfl

/-- The diagonal of a table array that is the reshape of a `[32768, 256]` argument: entry `(c, f)` is the
    argument's row `256 c + f`, column `f`. -/
theorem diag3_reshape (x : S32768x256.Idx → EReal) :
    DiagFinal.diag3 (shapeCast S128x256x256 x shapeCasts_S32768x256_S128x256x256) = Spec.diag x := by
  funext i
  unfold DiagFinal.diag3 Spec.diag
  refine shapeCast_apply x shapeCasts_S32768x256_S128x256x256 _ _ ?_
  rw [Shape.rowMajor_val_two, Shape.rowMajor_val_three]
  have h0 : (i 0).val < 128 := (i 0).isLt
  have h1 : (i 1).val < 256 := (i 1).isLt
  show ((i 0).val * 256 + (i 1).val) * 256 + (i 1).val = ((i 0).val * 256 + (i 1).val) * 256 + (i 1).val
  rfl

/-- The first region's results, unchanged by the host operations between the regions, are the diagonals. -/
theorem V3_v2_0 (c : Dev nD) : V3 m ρ c main_v2_0 = Spec.diag (m ((c : Thread nD τ).loc main_arg1)) := by
  have e : V3 m ρ c main_v2_0 = W2 m ρ c (Proc.devRef .tc main_v2_0) := by
    show StableHlo.after hostOps1 (W2 m ρ c) (Proc.devRef .tc main_v2_0) = _
    dsimp only [hostOps1]
    after_results
  rw [e]
  refine (W2_arr m ρ c 2).trans ?_
  rw [DiagFinal.final2, V1_v0, diag3_reshape]

theorem V3_v2_1 (c : Dev nD) : V3 m ρ c main_v2_1 = Spec.diag (m ((c : Thread nD τ).loc main_arg2)) := by
  have e : V3 m ρ c main_v2_1 = W2 m ρ c (Proc.devRef .tc main_v2_1) := by
    show StableHlo.after hostOps1 (W2 m ρ c) (Proc.devRef .tc main_v2_1) = _
    dsimp only [hostOps1]
    after_results
  rw [e]
  refine (W2_arr m ρ c 3).trans ?_
  rw [DiagFinal.final3, V1_v1, diag3_reshape]

/-! ## The four rows the host operations between the regions compute -/

/-- A vector reshaped to one row, read back as the row, is the vector. -/
theorem row1_reshape (v : S256.Idx → EReal) : MainFinal.row1 (shapeCast S1x256 v shapeCasts_S256_S1x256) = v := by
  funext i
  obtain ⟨j, rfl⟩ : ∃ j : Fin 256, i = ix1 j := ⟨i 0, eq_ix1 i⟩
  rw [MainFinal.row1_apply, shapeCast_a_1a_apply]

/-- The bias row is the sum of the two bias arguments. -/
theorem V3_v4 (c : Dev nD) : V3 m ρ c main_v4
    = shapeCast S1x256 (biasK (m ((c : Thread nD τ).loc main_arg3)) (m ((c : Thread nD τ).loc main_arg4))) shapeCasts_S256_S1x256 := by
  have e : V3 m ρ c main_v4 = shapeCast S1x256 (biasK (W2 m ρ c (Proc.devRef .tc main_arg3)) (W2 m ρ c (Proc.devRef .tc main_arg4))) shapeCasts_S256_S1x256 := by
    show StableHlo.after hostOps1 (W2 m ρ c) (Proc.devRef .tc main_v4) = _
    dsimp only [hostOps1]
    after_results
    rfl
  rw [e, W2_arg m ρ c main_arg3 (by decide) (by decide) (by decide) (by decide),
    W2_arg m ρ c main_arg4 (by decide) (by decide) (by decide) (by decide)]

/-- The attention row is the softmax of the logits argument. -/
theorem V3_v15 (c : Dev nD) : V3 m ρ c main_v15
    = shapeCast S1x256 (softK (m ((c : Thread nD τ).loc main_arg5))) shapeCasts_S256_S1x256 := by
  have e : V3 m ρ c main_v15 = shapeCast S1x256 (softK (W2 m ρ c (Proc.devRef .tc main_arg5))) shapeCasts_S256_S1x256 := by
    show StableHlo.after hostOps1 (W2 m ρ c) (Proc.devRef .tc main_v15) = _
    dsimp only [hostOps1]
    after_results
    rfl
  rw [e, W2_arg m ρ c main_arg5 (by decide) (by decide) (by decide) (by decide)]

/-- The scale row is the scale argument. -/
theorem V3_v16 (c : Dev nD) : V3 m ρ c main_v16
    = shapeCast S1x256 (m ((c : Thread nD τ).loc main_arg6)) shapeCasts_S256_S1x256 := by
  have e : V3 m ρ c main_v16 = shapeCast S1x256 (W2 m ρ c (Proc.devRef .tc main_arg6)) shapeCasts_S256_S1x256 := by
    show StableHlo.after hostOps1 (W2 m ρ c) (Proc.devRef .tc main_v16) = _
    dsimp only [hostOps1]
    after_results
    rfl
  rw [e, W2_arg m ρ c main_arg6 (by decide) (by decide) (by decide) (by decide)]

/-- The shift row is the shift argument. -/
theorem V3_v17 (c : Dev nD) : V3 m ρ c main_v17
    = shapeCast S1x256 (m ((c : Thread nD τ).loc main_arg7)) shapeCasts_S256_S1x256 := by
  have e : V3 m ρ c main_v17 = shapeCast S1x256 (W2 m ρ c (Proc.devRef .tc main_arg7)) shapeCasts_S256_S1x256 := by
    show StableHlo.after hostOps1 (W2 m ρ c) (Proc.devRef .tc main_v17) = _
    dsimp only [hostOps1]
    after_results
    rfl
  rw [e, W2_arg m ρ c main_arg7 (by decide) (by decide) (by decide) (by decide)]

/-! ## The result -/

/-- THE RESULT ARRAY at the last boundary, as one function of the launch memory: the specification at the class
    probabilities, the diagonals of the two weight arguments, the softmax of the logits, the sum of the two
    biases, the scale and the shift. -/
theorem result_eq (c : Dev nD) :
    W4 m ρ c (Proc.devRef .tc main_v18)
      = Spec.GA (m ((c : Thread nD τ).loc main_arg0)) (Spec.diag (m ((c : Thread nD τ).loc main_arg1)))
          (Spec.diag (m ((c : Thread nD τ).loc main_arg2))) (softK (m ((c : Thread nD τ).loc main_arg5)))
          (biasK (m ((c : Thread nD τ).loc main_arg3)) (m ((c : Thread nD τ).loc main_arg4)))
          (m ((c : Thread nD τ).loc main_arg6)) (m ((c : Thread nD τ).loc main_arg7)) := by
  refine (W4_arr m ρ c 7).trans ?_
  rw [MainFinal.final7]
  unfold MainFinal.GV
  rw [V3_arg0, V3_v2_0, V3_v2_1, V3_v4, V3_v15, V3_v16, V3_v17, row1_reshape, row1_reshape, row1_reshape, row1_reshape]

end Cert.KernelIdeal.Boundary

end
-- ==== Proof.RefGather.lean ====
/-
  The reference's gather is the diagonal. The index array `[256, 2]` holds, in row `f`, the pair `(f, f)`: each
  column is an iota, wrapped by 256 where negative (never: an iota is not negative). The gather takes, for result
  `(c, f)`, the whole first axis at offset `c` and one element on each of the two collapsed axes, at the start
  index read off row `f` and clamped into `[0, 255]` (no clamping happens: `f ≤ 255`). So it reads the table
  array at `(c, f, f)`, and the table array being the reshape of a `[32768, 256]` argument, the argument at row
  `256 c + f`, column `f`.
-/
import proofs.«106374_j36163624632835_1_alg».proof.Proof.Gen.ReferenceIdeal.Read
import proofs.«106374_j36163624632835_1_alg».proof.Proof.Spec
import Idealize.ShloMosaic.Lib.Pipeline.Value
import Idealize.ShloMosaic.Lib.ValueIdx

set_option maxRecDepth 16384

noncomputable section

namespace Cert.RefValue

open Idealize.ShloMosaic Idealize.ShloMosaic.ValueIdx Cert.ReferenceIdeal Cert.ReferenceIdeal.Gen Cert.ReferenceIdeal.Read

variable {F : FTy → Type} [FloatOps F]

/-- An iota entry below 256 is not negative as a signed word. -/
theorem not_neg : ∀ f : Fin 256, IntOp.cmpi .slt (BitVec.ofNat 32 f.val) 0#32 = 0#1 := by decide +kernel

/-- … and reads back as itself, signed. -/
theorem toNat_of : ∀ f : Fin 256, (BitVec.ofNat 32 f.val).toInt.toNat = f.val := by decide +kernel

/-- The first index column is the iota. -/
theorem col0_apply (f : Fin 256) : val_main_v6 (F := F) (ix1 f) = BitVec.ofNat 32 f.val := by
  rw [val_main_v6_apply, val_main_v3_apply, val_main_v1_apply, val_main_v2_apply, val_main_c_apply]
  show Scalar.select (IntOp.cmpi .slt (BitVec.ofNat 32 f.val) 0#32) _ _ = _
  rw [not_neg f, select_zero]

/-- The second index column is the iota. -/
theorem col1_apply (f : Fin 256) : val_main_v11 (F := F) (ix1 f) = BitVec.ofNat 32 f.val := by
  rw [val_main_v11_apply, val_main_v8_apply, val_main_v1_apply, val_main_v7_apply, val_main_c_1_apply]
  show Scalar.select (IntOp.cmpi .slt (BitVec.ofNat 32 f.val) 0#32) _ _ = _
  rw [not_neg f, select_zero]

/-- Row `f` of the index array is `(f, f)`. -/
theorem idx_apply0 (f : Fin 256) : val_main_v14 (F := F) (ix2 f (0 : Fin 2)) = BitVec.ofNat 32 f.val := by
  unfold val_main_v14
  rw [concatenate_pair_apply_left (t := S256x2) (s₁ := S256x1) (s₂ := S256x1) (1 : Fin 2) (val_main_v12 (F := F)) (val_main_v13 (F := F)) concatenates_S256x1_S256x1_S256x2_d1 (ix2 f (0 : Fin 2)) rfl (ix2 f (0 : Fin 1))
    (fun b => by match b with | ⟨0, _⟩ => rfl | ⟨1, _⟩ => rfl)]
  rw [val_main_v12_apply]
  exact col0_apply f

theorem idx_apply1 (f : Fin 256) : val_main_v14 (F := F) (ix2 f (1 : Fin 2)) = BitVec.ofNat 32 f.val := by
  unfold val_main_v14
  rw [concatenate_pair_apply_right (t := S256x2) (s₁ := S256x1) (s₂ := S256x1) (1 : Fin 2) (val_main_v12 (F := F)) (val_main_v13 (F := F)) concatenates_S256x1_S256x1_S256x2_d1 (ix2 f (1 : Fin 2)) rfl rfl (ix2 f (0 : Fin 1))
    (fun b hb => by
      match b with
      | ⟨0, _⟩ => rfl
      | ⟨1, _⟩ => exact absurd rfl hb)
    rfl]
  rw [val_main_v13_apply]
  exact col1_apply f

/-- THE GATHER AT `(c, f)`: the table array at `(c, f, f)` — the first axis at its offset, each collapsed axis at
    its start index, which row `f` of the index array gives as `f` and the clamp leaves alone. -/
theorem gather_apply (y : (⟨S128x256x256, .f32⟩ : BufTy).Contents (Elt F)) (c : Fin 128) (f : Fin 256) :
    Host.gather gather_S128x256x256_S256x2_S128x256_0_12_n_n_12_1_12811 y (val_main_v14 (F := F)) (ix2 c f) = y (ix3 c f f) := by
  unfold Host.gather
  refine congrArg y (funext fun a => Fin.ext ?_)
  show gather_S128x256x256_S256x2_S128x256_0_12_n_n_12_1_12811.start (ix2 c f) (val_main_v14 (F := F)) a + gather_S128x256x256_S256x2_S128x256_0_12_n_n_12_1_12811.batchCoord (ix2 c f) a + gather_S128x256x256_S256x2_S128x256_0_12_n_n_12_1_12811.offCoord (ix2 c f) a = (ix3 c f f a).val
  have hf := f.isLt
  have h0 : gather_S128x256x256_S256x2_S128x256_0_12_n_n_12_1_12811.start (ix2 c f) (val_main_v14 (F := F)) (0 : Fin 3) + gather_S128x256x256_S256x2_S128x256_0_12_n_n_12_1_12811.batchCoord (ix2 c f) (0 : Fin 3)
      + gather_S128x256x256_S256x2_S128x256_0_12_n_n_12_1_12811.offCoord (ix2 c f) (0 : Fin 3) = c.val := by
    rw [GatherDims.batchCoord_eq_zero _ _ _ List.not_mem_nil]
    unfold GatherDims.start
    rw [dif_neg (show ¬ (0 : Fin 3) ∈ gather_S128x256x256_S256x2_S128x256_0_12_n_n_12_1_12811.startIndexMap by decide)]
    unfold GatherDims.offCoord
    rw [dif_pos (show (0 : Fin 3) ∈ gather_S128x256x256_S256x2_S128x256_0_12_n_n_12_1_12811.sKept by decide)]
    simp only [Nat.zero_add]
    rfl
  have h1 : gather_S128x256x256_S256x2_S128x256_0_12_n_n_12_1_12811.start (ix2 c f) (val_main_v14 (F := F)) (1 : Fin 3) + gather_S128x256x256_S256x2_S128x256_0_12_n_n_12_1_12811.batchCoord (ix2 c f) (1 : Fin 3)
      + gather_S128x256x256_S256x2_S128x256_0_12_n_n_12_1_12811.offCoord (ix2 c f) (1 : Fin 3) = f.val := by
    rw [GatherDims.batchCoord_eq_zero _ _ _ List.not_mem_nil,
      GatherDims.offCoord_eq_zero _ _ _ (fun h => ((GatherDims.mem_sKept _ _).mp h).1 (by decide : (1 : Fin 3) ∈ gather_S128x256x256_S256x2_S128x256_0_12_n_n_12_1_12811.collapsedSliceDims))]
    unfold GatherDims.start
    rw [dif_pos (show (1 : Fin 3) ∈ gather_S128x256x256_S256x2_S128x256_0_12_n_n_12_1_12811.startIndexMap by decide)]
    have hsi : gather_S128x256x256_S256x2_S128x256_0_12_n_n_12_1_12811.siIdx (ix2 c f) ⟨List.idxOf (1 : Fin 3) gather_S128x256x256_S256x2_S128x256_0_12_n_n_12_1_12811.startIndexMap,
        List.idxOf_lt_length_iff.2 (show (1 : Fin 3) ∈ gather_S128x256x256_S256x2_S128x256_0_12_n_n_12_1_12811.startIndexMap by decide)⟩ = ix2 f (0 : Fin 2) :=
      funext fun b => Fin.ext (by
        match b with
        | ⟨0, _⟩ => rfl
        | ⟨1, _⟩ => rfl)
    rw [hsi, idx_apply0, toNat_of]
    show min f.val (256 - 1) + 0 + 0 = f.val
    rw [Nat.min_eq_left (by omega)]
    rfl
  have h2 : gather_S128x256x256_S256x2_S128x256_0_12_n_n_12_1_12811.start (ix2 c f) (val_main_v14 (F := F)) (2 : Fin 3) + gather_S128x256x256_S256x2_S128x256_0_12_n_n_12_1_12811.batchCoord (ix2 c f) (2 : Fin 3)
      + gather_S128x256x256_S256x2_S128x256_0_12_n_n_12_1_12811.offCoord (ix2 c f) (2 : Fin 3) = f.val := by
    rw [GatherDims.batchCoord_eq_zero _ _ _ List.not_mem_nil,
      GatherDims.offCoord_eq_zero _ _ _ (fun h => ((GatherDims.mem_sKept _ _).mp h).1 (by decide : (2 : Fin 3) ∈ gather_S128x256x256_S256x2_S128x256_0_12_n_n_12_1_12811.collapsedSliceDims))]
    unfold GatherDims.start
    rw [dif_pos (show (2 : Fin 3) ∈ gather_S128x256x256_S256x2_S128x256_0_12_n_n_12_1_12811.startIndexMap by decide)]
    have hsi : gather_S128x256x256_S256x2_S128x256_0_12_n_n_12_1_12811.siIdx (ix2 c f) ⟨List.idxOf (2 : Fin 3) gather_S128x256x256_S256x2_S128x256_0_12_n_n_12_1_12811.startIndexMap,
        List.idxOf_lt_length_iff.2 (show (2 : Fin 3) ∈ gather_S128x256x256_S256x2_S128x256_0_12_n_n_12_1_12811.startIndexMap by decide)⟩ = ix2 f (1 : Fin 2) :=
      funext fun b => Fin.ext (by
        match b with
        | ⟨0, _⟩ => rfl
        | ⟨1, _⟩ => rfl)
    rw [hsi, idx_apply1, toNat_of]
    show min f.val (256 - 1) + 0 + 0 = f.val
    rw [Nat.min_eq_left (by omega)]
    rfl
  match a with
  | ⟨0, _⟩ => exact h0
  | ⟨1, _⟩ => exact h1
  | ⟨2, _⟩ => exact h2

/-- The reshape of a `[32768, 256]` argument at `(c, f, f)` is the argument at row `256 c + f`, column `f`. -/
theorem reshape_diag (x : (⟨S32768x256, .f32⟩ : BufTy).Contents (Elt Ideal)) (c : Fin 128) (f : Fin 256) :
    x (idx_main_v0 (ix3 c f f)) = Spec.diag x (ix2 c f) := by
  rw [Spec.diag_apply]
  refine congrArg x (funext fun a => Fin.ext ?_)
  have hc := c.isLt
  have hf := f.isLt
  match a with
  | ⟨0, _⟩ => show ((c.val * 256 + f.val) * 256 + f.val) / 256 = c.val * 256 + f.val; omega
  | ⟨1, _⟩ => show ((c.val * 256 + f.val) * 256 + f.val) % 256 = f.val; omega

/-- THE FIRST GATHER IS THE DIAGONAL of the first weight argument. -/
theorem gather_diag (x : (⟨S32768x256, .f32⟩ : BufTy).Contents (Elt Ideal)) :
    val_main_v15 (F := Ideal) x = Spec.diag x := by
  funext i
  obtain ⟨c, f, rfl⟩ : ∃ (c : Fin 128) (f : Fin 256), i = ix2 c f := ⟨i 0, i 1, eq_ix2 i⟩
  unfold val_main_v15
  rw [gather_apply, val_main_v0_apply]
  exact reshape_diag x c f

/-- The second gather's index array, the same way. -/
theorem col0_apply' (f : Fin 256) : val_main_v22 (F := F) (ix1 f) = BitVec.ofNat 32 f.val := by
  rw [val_main_v22_apply, val_main_v19_apply, val_main_v17_apply, val_main_v18_apply, val_main_c_3_apply]
  show Scalar.select (IntOp.cmpi .slt (BitVec.ofNat 32 f.val) 0#32) _ _ = _
  rw [not_neg f, select_zero]

theorem col1_apply' (f : Fin 256) : val_main_v27 (F := F) (ix1 f) = BitVec.ofNat 32 f.val := by
  rw [val_main_v27_apply, val_main_v24_apply, val_main_v17_apply, val_main_v23_apply, val_main_c_5_apply]
  show Scalar.select (IntOp.cmpi .slt (BitVec.ofNat 32 f.val) 0#32) _ _ = _
  rw [not_neg f, select_zero]

theorem idx_apply0' (f : Fin 256) : val_main_v30 (F := F) (ix2 f (0 : Fin 2)) = BitVec.ofNat 32 f.val := by
  unfold val_main_v30
  rw [concatenate_pair_apply_left (t := S256x2) (s₁ := S256x1) (s₂ := S256x1) (1 : Fin 2) (val_main_v28 (F := F)) (val_main_v29 (F := F)) concatenates_S256x1_S256x1_S256x2_d1 (ix2 f (0 : Fin 2)) rfl (ix2 f (0 : Fin 1))
    (fun b => by match b with | ⟨0, _⟩ => rfl | ⟨1, _⟩ => rfl)]
  rw [val_main_v28_apply]
  exact col0_apply' f

theorem idx_apply1' (f : Fin 256) : val_main_v30 (F := F) (ix2 f (1 : Fin 2)) = BitVec.ofNat 32 f.val := by
  unfold val_main_v30
  rw [concatenate_pair_apply_right (t := S256x2) (s₁ := S256x1) (s₂ := S256x1) (1 : Fin 2) (val_main_v28 (F := F)) (val_main_v29 (F := F)) concatenates_S256x1_S256x1_S256x2_d1 (ix2 f (1 : Fin 2)) rfl rfl (ix2 f (0 : Fin 1))
    (fun b hb => by
      match b with
      | ⟨0, _⟩ => rfl
      | ⟨1, _⟩ => exact absurd rfl hb)
    rfl]
  rw [val_main_v29_apply]
  exact col1_apply' f

theorem gather_apply' (y : (⟨S128x256x256, .f32⟩ : BufTy).Contents (Elt F)) (c : Fin 128) (f : Fin 256) :
    Host.gather gather_S128x256x256_S256x2_S128x256_0_12_n_n_12_1_12811 y (val_main_v30 (F := F)) (ix2 c f) = y (ix3 c f f) := by
  unfold Host.gather
  refine congrArg y (funext fun a => Fin.ext ?_)
  show gather_S128x256x256_S256x2_S128x256_0_12_n_n_12_1_12811.start (ix2 c f) (val_main_v30 (F := F)) a + gather_S128x256x256_S256x2_S128x256_0_12_n_n_12_1_12811.batchCoord (ix2 c f) a + gather_S128x256x256_S256x2_S128x256_0_12_n_n_12_1_12811.offCoord (ix2 c f) a = (ix3 c f f a).val
  have hf := f.isLt
  have h0 : gather_S128x256x256_S256x2_S128x256_0_12_n_n_12_1_12811.start (ix2 c f) (val_main_v30 (F := F)) (0 : Fin 3) + gather_S128x256x256_S256x2_S128x256_0_12_n_n_12_1_12811.batchCoord (ix2 c f) (0 : Fin 3)
      + gather_S128x256x256_S256x2_S128x256_0_12_n_n_12_1_12811.offCoord (ix2 c f) (0 : Fin 3) = c.val := by
    rw [GatherDims.batchCoord_eq_zero _ _ _ List.not_mem_nil]
    unfold GatherDims.start
    rw [dif_neg (show ¬ (0 : Fin 3) ∈ gather_S128x256x256_S256x2_S128x256_0_12_n_n_12_1_12811.startIndexMap by decide)]
    unfold GatherDims.offCoord
    rw [dif_pos (show (0 : Fin 3) ∈ gather_S128x256x256_S256x2_S128x256_0_12_n_n_12_1_12811.sKept by decide)]
    simp only [Nat.zero_add]
    rfl
  have h1 : gather_S128x256x256_S256x2_S128x256_0_12_n_n_12_1_12811.start (ix2 c f) (val_main_v30 (F := F)) (1 : Fin 3) + gather_S128x256x256_S256x2_S128x256_0_12_n_n_12_1_12811.batchCoord (ix2 c f) (1 : Fin 3)
      + gather_S128x256x256_S256x2_S128x256_0_12_n_n_12_1_12811.offCoord (ix2 c f) (1 : Fin 3) = f.val := by
    rw [GatherDims.batchCoord_eq_zero _ _ _ List.not_mem_nil,
      GatherDims.offCoord_eq_zero _ _ _ (fun h => ((GatherDims.mem_sKept _ _).mp h).1 (by decide : (1 : Fin 3) ∈ gather_S128x256x256_S256x2_S128x256_0_12_n_n_12_1_12811.collapsedSliceDims))]
    unfold GatherDims.start
    rw [dif_pos (show (1 : Fin 3) ∈ gather_S128x256x256_S256x2_S128x256_0_12_n_n_12_1_12811.startIndexMap by decide)]
    have hsi : gather_S128x256x256_S256x2_S128x256_0_12_n_n_12_1_12811.siIdx (ix2 c f) ⟨List.idxOf (1 : Fin 3) gather_S128x256x256_S256x2_S128x256_0_12_n_n_12_1_12811.startIndexMap,
        List.idxOf_lt_length_iff.2 (show (1 : Fin 3) ∈ gather_S128x256x256_S256x2_S128x256_0_12_n_n_12_1_12811.startIndexMap by decide)⟩ = ix2 f (0 : Fin 2) :=
      funext fun b => Fin.ext (by
        match b with
        | ⟨0, _⟩ => rfl
        | ⟨1, _⟩ => rfl)
    rw [hsi, idx_apply0', toNat_of]
    show min f.val (256 - 1) + 0 + 0 = f.val
    rw [Nat.min_eq_left (by omega)]
    rfl
  have h2 : gather_S128x256x256_S256x2_S128x256_0_12_n_n_12_1_12811.start (ix2 c f) (val_main_v30 (F := F)) (2 : Fin 3) + gather_S128x256x256_S256x2_S128x256_0_12_n_n_12_1_12811.batchCoord (ix2 c f) (2 : Fin 3)
      + gather_S128x256x256_S256x2_S128x256_0_12_n_n_12_1_12811.offCoord (ix2 c f) (2 : Fin 3) = f.val := by
    rw [GatherDims.batchCoord_eq_zero _ _ _ List.not_mem_nil,
      GatherDims.offCoord_eq_zero _ _ _ (fun h => ((GatherDims.mem_sKept _ _).mp h).1 (by decide : (2 : Fin 3) ∈ gather_S128x256x256_S256x2_S128x256_0_12_n_n_12_1_12811.collapsedSliceDims))]
    unfold GatherDims.start
    rw [dif_pos (show (2 : Fin 3) ∈ gather_S128x256x256_S256x2_S128x256_0_12_n_n_12_1_12811.startIndexMap by decide)]
    have hsi : gather_S128x256x256_S256x2_S128x256_0_12_n_n_12_1_12811.siIdx (ix2 c f) ⟨List.idxOf (2 : Fin 3) gather_S128x256x256_S256x2_S128x256_0_12_n_n_12_1_12811.startIndexMap,
        List.idxOf_lt_length_iff.2 (show (2 : Fin 3) ∈ gather_S128x256x256_S256x2_S128x256_0_12_n_n_12_1_12811.startIndexMap by decide)⟩ = ix2 f (1 : Fin 2) :=
      funext fun b => Fin.ext (by
        match b with
        | ⟨0, _⟩ => rfl
        | ⟨1, _⟩ => rfl)
    rw [hsi, idx_apply1', toNat_of]
    show min f.val (256 - 1) + 0 + 0 = f.val
    rw [Nat.min_eq_left (by omega)]
    rfl
  match a with
  | ⟨0, _⟩ => exact h0
  | ⟨1, _⟩ => exact h1
  | ⟨2, _⟩ => exact h2

/-- THE SECOND GATHER IS THE DIAGONAL of the second weight argument. -/
theorem gather_diag' (x : (⟨S32768x256, .f32⟩ : BufTy).Contents (Elt Ideal)) :
    val_main_v31 (F := Ideal) x = Spec.diag x := by
  funext i
  obtain ⟨c, f, rfl⟩ : ∃ (c : Fin 128) (f : Fin 256), i = ix2 c f := ⟨i 0, i 1, eq_ix2 i⟩
  unfold val_main_v31
  rw [gather_apply', val_main_v16_apply]
  exact reshape_diag x c f

end Cert.RefValue

end
-- ==== Proof.RefSpec.lean ====
/-
  The reference computes the specification. Read one operation at a time at row `r`, feature `j`: the two
  products are sums over the 128 classes against the gathered diagonals; the blend adds the two biases one after
  the other, which is the blend plus their sum (addition of extended reals is associative); a row's mean is the
  initial value zero plus the row's sum, over 256; and the normalisation is the same expression of the row as
  the specification's.
-/
import proofs.«106374_j36163624632835_1_alg».proof.Proof.Gen.ReferenceIdeal.Read
import proofs.«106374_j36163624632835_1_alg».proof.Proof.Spec
import proofs.«106374_j36163624632835_1_alg».proof.Proof.RefGather
import Idealize.ShloMosaic.Lib.ValueIdx
import Idealize.ShloMosaic.PureOps.Ideal.Laws

set_option maxRecDepth 16384

noncomputable section

namespace Cert.RefValue

open Idealize.ShloMosaic Idealize.ShloMosaic.ValueIdx Cert.ReferenceIdeal Cert.ReferenceIdeal.Gen Cert.ReferenceIdeal.Read

/-- The sum of the two bias vectors, entry by entry. -/
def biasR (a b : S256.Idx → EReal) : S256.Idx → EReal := fun i => a i + b i

/-- THE BLEND: the reference's value before normalisation, at row `r`, feature `k`. -/
theorem pre_stage (x0 : (⟨S65536x128, .f32⟩ : BufTy).Contents (Elt Ideal)) (x1 x2 : (⟨S32768x256, .f32⟩ : BufTy).Contents (Elt Ideal)) (x3 x4 x5 : (⟨S256, .f32⟩ : BufTy).Contents (Elt Ideal)) (r : Fin 65536) (k : Fin 256) :
    val_main_v59 (F := Ideal) x0 x1 x2 x3 x4 x5 (ix2 r k)
      = Spec.pre x0 (Spec.diag x1) (Spec.diag x2) (val_main_v41 (F := Ideal) x5) (biasR x3 x4) r k := by
  rw [val_main_v59_apply, val_main_v56_apply, val_main_v53_apply, val_main_v47_apply, val_main_v52_apply,
    val_main_v46_apply, val_main_v45_apply, val_main_v42_apply, val_main_v51_apply, val_main_v50_apply,
    val_main_v49_apply, val_main_v48_apply, val_main_cst_9_apply, val_main_v44_apply, val_main_v43_apply,
    val_main_v55_apply, val_main_v54_apply, val_main_v58_apply, val_main_v57_apply, gather_diag, gather_diag']
  have e1 : idx_main_v45 (idx_main_v46 (ix2 r k)) = ix1 k := funext fun a => Fin.ext (by match a with | ⟨0, _⟩ => rfl)
  have e2 : idx_main_v50 (idx_main_v51 (ix2 r k)) = ix1 k := funext fun a => Fin.ext (by match a with | ⟨0, _⟩ => rfl)
  have e3 : idx_main_v54 (idx_main_v55 (ix2 r k)) = ix1 k := funext fun a => Fin.ext (by match a with | ⟨0, _⟩ => rfl)
  have e4 : idx_main_v57 (idx_main_v58 (ix2 r k)) = ix1 k := funext fun a => Fin.ext (by match a with | ⟨0, _⟩ => rfl)
  have l1 : ∀ q : Fin 128, lidx_main_v42 (ix2 r k) q = ix2 r q := fun q => funext fun a => Fin.ext (by
    match a with
    | ⟨0, _⟩ => rfl
    | ⟨1, _⟩ => rfl)
  have r1 : ∀ q : Fin 128, ridx_main_v42 (ix2 r k) q = ix2 q k := fun q => funext fun a => Fin.ext (by
    match a with
    | ⟨0, _⟩ => rfl
    | ⟨1, _⟩ => rfl)
  have l2 : ∀ q : Fin 128, lidx_main_v43 (ix2 r k) q = ix2 r q := fun q => funext fun a => Fin.ext (by
    match a with
    | ⟨0, _⟩ => rfl
    | ⟨1, _⟩ => rfl)
  have r2 : ∀ q : Fin 128, ridx_main_v43 (ix2 r k) q = ix2 q k := fun q => funext fun a => Fin.ext (by
    match a with
    | ⟨0, _⟩ => rfl
    | ⟨1, _⟩ => rfl)
  simp only [e1, e2, e3, e4, l1, r1, l2, r2]
  unfold Spec.pre biasR
  exact add_assoc _ _ _

/-- The host's mean of 256 entries — the initial value zero plus their sum, over 256 — is the specification's. -/
theorem mean_of_sum (p : Fin 256 → EReal) :
    FloatOps.hostDivf (F := Ideal) (φ := .f32)
        (FloatOps.ofBits (F := Ideal) .f32 0x00000000#32 + ∑ k : Fin 256, p k)
        (FloatOps.ofBits (F := Ideal) .f32 0x43800000#32) = Spec.mean p := by
  unfold Spec.mean Spec.n256
  show Ideal.div (Ideal.ofBits .f32 0x00000000#32 + _) _ = _
  rw [Ideal.ofBits_zero_f32, zero_add]
  rfl

/-- THE MEAN of row `r` of the blend. -/
theorem mean_stage (x0 : (⟨S65536x128, .f32⟩ : BufTy).Contents (Elt Ideal)) (x1 x2 : (⟨S32768x256, .f32⟩ : BufTy).Contents (Elt Ideal)) (x3 x4 x5 : (⟨S256, .f32⟩ : BufTy).Contents (Elt Ideal)) (r : Fin 65536) (u : Fin 1) :
    val_main_v63 (F := Ideal) x0 x1 x2 x3 x4 x5 (ix2 r u)
      = Spec.mean (fun k => val_main_v59 (F := Ideal) x0 x1 x2 x3 x4 x5 (ix2 r k)) := by
  rw [val_main_v63_apply, val_main_v61_apply, val_main_v60_apply, val_main_v62_apply, val_main_cst_11_apply,
    val_main_cst_10_apply]
  have e : ∀ k : Fin 256, idx_main_v60 (idx_main_v61 (ix2 r u)) k = ix2 r k := fun k => funext fun a => Fin.ext (by
    match a with
    | ⟨0, _⟩ => rfl
    | ⟨1, _⟩ => rfl)
  simp only [e]
  exact mean_of_sum _

/-- THE VARIANCE of row `r` of the blend: the mean of the squared centred entries. -/
theorem var_stage (x0 : (⟨S65536x128, .f32⟩ : BufTy).Contents (Elt Ideal)) (x1 x2 : (⟨S32768x256, .f32⟩ : BufTy).Contents (Elt Ideal)) (x3 x4 x5 : (⟨S256, .f32⟩ : BufTy).Contents (Elt Ideal)) (r : Fin 65536) (u : Fin 1) :
    val_main_v70 (F := Ideal) x0 x1 x2 x3 x4 x5 (ix2 r u)
      = Spec.mean (fun k => (val_main_v59 (F := Ideal) x0 x1 x2 x3 x4 x5 (ix2 r k) - Spec.mean (fun k' => val_main_v59 (F := Ideal) x0 x1 x2 x3 x4 x5 (ix2 r k')))
          * (val_main_v59 (F := Ideal) x0 x1 x2 x3 x4 x5 (ix2 r k) - Spec.mean (fun k' => val_main_v59 (F := Ideal) x0 x1 x2 x3 x4 x5 (ix2 r k')))) := by
  rw [val_main_v70_apply, val_main_v68_apply, val_main_v67_apply, val_main_v69_apply, val_main_cst_13_apply,
    val_main_cst_12_apply]
  have e : ∀ k : Fin 256, idx_main_v67 (idx_main_v68 (ix2 r u)) k = ix2 r k := fun k => funext fun a => Fin.ext (by
    match a with
    | ⟨0, _⟩ => rfl
    | ⟨1, _⟩ => rfl)
  have e2 : ∀ k : Fin 256, idx_main_v64 (ix2 r k) = ix2 r (0 : Fin 1) := fun k => funext fun a => Fin.ext (by
    match a with
    | ⟨0, _⟩ => rfl
    | ⟨1, _⟩ => rfl)
  simp only [e, val_main_v66_apply, val_main_v65_apply, val_main_v64_apply, e2, mean_stage]
  exact mean_of_sum _

/-- THE REFERENCE IS THE SPECIFICATION at the arguments, the gathered diagonals, the softmax of the logits and the
    sum of the two biases. -/
theorem ref_eq (x0 : (⟨S65536x128, .f32⟩ : BufTy).Contents (Elt Ideal)) (x1 x2 : (⟨S32768x256, .f32⟩ : BufTy).Contents (Elt Ideal)) (x3 x4 x5 : (⟨S256, .f32⟩ : BufTy).Contents (Elt Ideal)) (x6 x7 : (⟨S256, .f32⟩ : BufTy).Contents (Elt Ideal)) :
    val_main_v83 (F := Ideal) x0 x1 x2 x3 x4 x5 x6 x7
      = Spec.GA x0 (Spec.diag x1) (Spec.diag x2) (val_main_v41 (F := Ideal) x5) (biasR x3 x4) x6 x7 := by
  funext i
  obtain ⟨r, j, rfl⟩ : ∃ (r : Fin 65536) (j : Fin 256), i = ix2 r j := ⟨i 0, i 1, eq_ix2 i⟩
  rw [Spec.GA_apply]
  unfold Spec.G Spec.lnRow
  rw [val_main_v83_apply, val_main_v80_apply, val_main_v77_apply, val_main_v72_apply, val_main_v71_apply,
    val_main_v76_apply, val_main_v75_apply, val_main_v74_apply, val_main_v73_apply, val_main_cst_14_apply,
    val_main_v79_apply, val_main_v78_apply, val_main_v82_apply, val_main_v81_apply]
  have e71 : idx_main_v71 (ix2 r j) = ix2 r (0 : Fin 1) := funext fun a => Fin.ext (by
    match a with
    | ⟨0, _⟩ => rfl
    | ⟨1, _⟩ => rfl)
  have e76 : idx_main_v76 (ix2 r j) = ix2 r (0 : Fin 1) := funext fun a => Fin.ext (by
    match a with
    | ⟨0, _⟩ => rfl
    | ⟨1, _⟩ => rfl)
  have e78 : idx_main_v78 (idx_main_v79 (ix2 r j)) = ix1 j := funext fun a => Fin.ext (by match a with | ⟨0, _⟩ => rfl)
  have e81 : idx_main_v81 (idx_main_v82 (ix2 r j)) = ix1 j := funext fun a => Fin.ext (by match a with | ⟨0, _⟩ => rfl)
  rw [e71, e76, e78, e81, mean_stage, var_stage]
  simp only [pre_stage]
  rfl

end Cert.RefValue

end
-- ==== Proof.lean ====
/-
  The certificate: a two-kernel program (a masked lane sum that extracts the diagonals of two weight tables, then a
  fused product, blend and layer norm over blocks of 2048 rows) against its plain reference (a gather of the same
  diagonals, two products, the blend, the layer norm).

  On the extended reals both compute ONE function of the arguments, index by index (`Cert.Spec.GA`): row `r` of
  the class probabilities times each diagonal table, blended with the softmax of the attention logits and the
  hyperbolic tangent, plus the sum of the two biases, then normalised over its 256 features. The kernel side:
  its run with the result named at the last segment boundary, that boundary read back through the two regions
  (each region's blocks are the restrictions of one whole-array function, and tile its result) and through the
  host operations around them. The reference side: its run read one operation at a time, the gather read by
  hand. What joins them: a product with the zero of a mask is zero, so the masked sum is the diagonal entry; a
  change of float format is the identity; the two biases added one after the other are the blend plus their
  sum; the softmax is the same host chain on both sides and is never opened. No law used needs finiteness, so
  the precondition is not opened.
-/
import proofs.«106374_j36163624632835_1_alg».proof.Defs
import proofs.«106374_j36163624632835_1_alg».proof.Proof.Gen.Kernel
import proofs.«106374_j36163624632835_1_alg».proof.Proof.Gen.Kernel.Skeleton
import proofs.«106374_j36163624632835_1_alg».proof.Proof.Gen.Kernel.Launch
import proofs.«106374_j36163624632835_1_alg».proof.Proof.Gen.Kernel.Points
import proofs.«106374_j36163624632835_1_alg».proof.Proof.Gen.Kernel.Frame
import proofs.«106374_j36163624632835_1_alg».proof.Proof.Gen.KernelIdeal
import proofs.«106374_j36163624632835_1_alg».proof.Proof.Gen.KernelIdeal.Skeleton
import proofs.«106374_j36163624632835_1_alg».proof.Proof.Gen.KernelIdeal.Launch
import proofs.«106374_j36163624632835_1_alg».proof.Proof.Gen.KernelIdeal.Points
import proofs.«106374_j36163624632835_1_alg».proof.Proof.Gen.KernelIdeal.Frame
import proofs.«106374_j36163624632835_1_alg».proof.Proof.Gen.ReferenceIdeal
import proofs.«106374_j36163624632835_1_alg».proof.Proof.Gen.ReferenceIdeal.Run
import proofs.«106374_j36163624632835_1_alg».proof.Proof.Gen.ReferenceIdeal.Read
import proofs.«106374_j36163624632835_1_alg».proof.Proof.Gen.Pre_finite_inputs
import proofs.«106374_j36163624632835_1_alg».proof.Proof.Spec
import proofs.«106374_j36163624632835_1_alg».proof.Proof.KernelRun
import proofs.«106374_j36163624632835_1_alg».proof.Proof.Boundary
import proofs.«106374_j36163624632835_1_alg».proof.Proof.RefSpec
import Idealize.ShloMosaic.Adequacy
import Idealize.ShloMosaic.Init

set_option maxRecDepth 16384

noncomputable section

namespace Cert.Proof

open Idealize.ShloMosaic Idealize.ShloMosaic.TcCoe Idealize.SL.Sem

/-- The kernel's softmax of the logits and the reference's are one host chain. -/
theorem softmax_eq (a : Cert.KernelIdeal.S256.Idx → EReal) :
    Cert.KernelIdeal.Boundary.softK a = Cert.ReferenceIdeal.Read.val_main_v41 (F := Ideal) a := rfl

/-- Both sides add the two bias vectors entry by entry. -/
theorem bias_eq (a b : Cert.KernelIdeal.S256.Idx → EReal) :
    Cert.KernelIdeal.Boundary.biasK a b = Cert.RefValue.biasR a b := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read on the extended reals. -/
theorem preserves : Cert.preserves_Kernel_KernelIdeal := trivial

/-- The kernel's run with its result at the specification of the launch memory. -/
theorem kernel_value (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v18)
        = Cert.Spec.GA (m ((c.tc : Thread Cert.KernelIdeal.nD Cert.KernelIdeal.τ).loc Cert.KernelIdeal.main_arg0)) (Cert.Spec.diag (m ((c.tc : Thread Cert.KernelIdeal.nD Cert.KernelIdeal.τ).loc Cert.KernelIdeal.main_arg1)))
            (Cert.Spec.diag (m ((c.tc : Thread Cert.KernelIdeal.nD Cert.KernelIdeal.τ).loc Cert.KernelIdeal.main_arg2))) (Cert.KernelIdeal.Boundary.softK (m ((c.tc : Thread Cert.KernelIdeal.nD Cert.KernelIdeal.τ).loc Cert.KernelIdeal.main_arg5)))
            (Cert.KernelIdeal.Boundary.biasK (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
            (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run Cert.KernelIdeal.defs _ _).mono (fun r h c => ⟨(h c).1.trans (Cert.KernelIdeal.Boundary.result_eq m ρ c), (h c).2⟩)
    (Cert.KernelIdeal.KernelRun.run_named m ρ)

/-- On the extended reals the two programs, run from memories agreeing on the arguments, end with equal results:
    each is the specification at the arguments. -/
theorem algebraic : Cert.algebraic_KernelIdeal_ReferenceIdeal := by
  intro m ρ m' ρ' _ hagree
  refine ⟨_, kernel_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v83_eq, Cert.RefValue.ref_eq, a0, a1, a2, a3, a4, a5, a6, a7, softmax_eq, bias_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
